-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x4000000 : Shape := ⟨2, ![2, 4000000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x3 .f32) (main_arg1 : IVec S2x4000000 32) (main_arg2 : FVec F S3x16 .f32) (main_arg3 : FVec F S16 .f32) (main_arg4 : FVec F S16x1 .f32) (main_arg5 : FVec F S1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S500000x3 : Shape := ⟨2, ![500000, 3]⟩
abbrev S2x4000000 : Shape := ⟨2, ![2, 4000000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S500000 : Shape := ⟨1, ![500000]⟩
abbrev S1x4000000 : Shape := ⟨2, ![1, 4000000]⟩
abbrev S4000000 : Shape := ⟨1, ![4000000]⟩
abbrev S4500000 : Shape := ⟨1, ![4500000]⟩
abbrev S_ : Shape := ⟨0, ![]⟩
abbrev S4500000x1 : Shape := ⟨2, ![4500000, 1]⟩
abbrev S500000x1 : Shape := ⟨2, ![500000, 1]⟩
abbrev S500000x16 : Shape := ⟨2, ![500000, 16]⟩
abbrev S5000x3 : Shape := ⟨2, ![5000, 3]⟩
abbrev S5000x1 : Shape := ⟨2, ![5000, 1]⟩
abbrev S5000x16 : Shape := ⟨2, ![5000, 16]⟩
abbrev S4500000x16 : Shape := ⟨2, ![4500000, 16]⟩
abbrev S1x16 : Shape := ⟨2, ![1, 16]⟩
abbrev S1x1 : Shape := ⟨2, ![1, 1]⟩

abbrev nBuf : Space → Nat
  | .hbm => 66
  | .vmem => 28
  | .smem => 0
  | _ => 0

abbrev bufTy : (tb : Table) → Fin (tcTables nBuf tb) → BufTy
  | .hbm, ⟨0, _⟩ => ⟨S500000x3, .f32⟩
  | .hbm, ⟨1, _⟩ => ⟨S2x4000000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S500000, .i32⟩
  | .hbm, ⟨7, _⟩ => ⟨S1x4000000, .i32⟩
  | .hbm, ⟨8, _⟩ => ⟨S4000000, .i32⟩
  | .hbm, ⟨9, _⟩ => ⟨S4500000, .i32⟩
  | .hbm, ⟨10, _⟩ => ⟨S1x4000000, .i32⟩
  | .hbm, ⟨11, _⟩ => ⟨S4000000, .i32⟩
  | .hbm, ⟨12, _⟩ => ⟨S4500000, .i32⟩
  | .hbm, ⟨13, _⟩ => ⟨S_, .f32⟩
  | .hbm, ⟨14, _⟩ => ⟨S4500000, .f32⟩
  | .hbm, ⟨15, _⟩ => ⟨S_, .f32⟩
  | .hbm, ⟨16, _⟩ => ⟨S500000, .f32⟩
  | .hbm, ⟨17, _⟩ => ⟨S4500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S500000x1, .f32⟩
  | .hbm, ⟨31, _⟩ => ⟨S500000x16, .f32⟩
  | .hbm, ⟨32, _⟩ => ⟨S_, .i32⟩
  | .hbm, ⟨33, _⟩ => ⟨S4500000, .i32⟩
  | .hbm, ⟨34, _⟩ => ⟨S4500000, .i1⟩
  | .hbm, ⟨35, _⟩ => ⟨S_, .i32⟩
  | .hbm, ⟨36, _⟩ => ⟨S4500000, .i32⟩
  | .hbm, ⟨37, _⟩ => ⟨S4500000, .i32⟩
  | .hbm, ⟨38, _⟩ => ⟨S4500000, .i32⟩
  | .hbm, ⟨39, _⟩ => ⟨S4500000x1, .i32⟩
  | .hbm, ⟨40, _⟩ => ⟨S4500000x16, .f32⟩
  | .hbm, ⟨41, _⟩ => ⟨S_, .f32⟩
  | .hbm, ⟨42, _⟩ => ⟨S500000x16, .f32⟩
  | .hbm, ⟨43, _⟩ => ⟨S4500000x1, .i32⟩
  | .hbm, ⟨44, _⟩ => ⟨S500000x16, .f32⟩
  | .hbm, ⟨45, _⟩ => ⟨S500000x1, .f32⟩
  | .hbm, ⟨46, _⟩ => ⟨S1x16, .f32⟩
  | .hbm, ⟨47, _⟩ => ⟨S500000x16, .f32⟩
  | .hbm, ⟨48, _⟩ => ⟨S500000x1, .f32⟩
  | .hbm, ⟨49, _⟩ => ⟨S500000x1, .f32⟩
  | .hbm, ⟨50, _⟩ => ⟨S_, .i32⟩
  | .hbm, ⟨51, _⟩ => ⟨S4500000, .i32⟩
  | .hbm, ⟨52, _⟩ => ⟨S4500000, .i1⟩
  | .hbm, ⟨53, _⟩ => ⟨S_, .i32⟩
  | .hbm, ⟨54, _⟩ => ⟨S4500000, .i32⟩
  | .hbm, ⟨55, _⟩ => ⟨S4500000, .i32⟩
  | .hbm, ⟨56, _⟩ => ⟨S4500000, .i32⟩
  | .hbm, ⟨57, _⟩ => ⟨S4500000x1, .i32⟩
  | .hbm, ⟨58, _⟩ => ⟨S4500000x1, .f32⟩
  | .hbm, ⟨59, _⟩ => ⟨S_, .f32⟩
  | .hbm, ⟨60, _⟩ => ⟨S500000x1, .f32⟩
  | .hbm, ⟨61, _⟩ => ⟨S4500000x1, .i32⟩
  | .hbm, ⟨62, _⟩ => ⟨S500000x1, .f32⟩
  | .hbm, ⟨63, _⟩ => ⟨S500000x1, .f32⟩
  | .hbm, ⟨64, _⟩ => ⟨S1x1, .f32⟩
  | .hbm, ⟨65, _⟩ => ⟨S500000x1, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x4000000_S1x4000000_0_0 : S2x4000000.Slices ![0, 0] S1x4000000
  shapeCasts_S1x4000000_S4000000 : S1x4000000.ShapeCasts S4000000
  concatenates_S4000000_S500000_S4500000_d0 : Shape.Concatenates [S4000000, S500000] S4500000 0
  slices_S2x4000000_S1x4000000_1_0 : S2x4000000.Slices ![1, 0] S1x4000000
  bcast_S_S4500000 : S_.BroadcastsInDim S4500000 (![] : Fin 0 → Fin S4500000.rank)
  bcast_S_S500000 : S_.BroadcastsInDim S500000 (![] : Fin 0 → Fin S500000.rank)
  bcast_S4500000_S4500000x1_0 : S4500000.BroadcastsInDim S4500000x1 (![0] : Fin 1 → Fin S4500000x1.rank)
  shapeCasts_S500000_S500000x1 : S500000.ShapeCasts S500000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S500000x16 : S_.BroadcastsInDim S500000x16 (![] : Fin 0 → Fin S500000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  bcast_S_S500000x1 : S_.BroadcastsInDim S500000x1 (![] : Fin 0 → Fin S500000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S500000_S4500000x1_S4500000_n_0_0_1_wf : ScatterDims.WF S500000 S4500000x1 S4500000 [] [0] [0] 1
  dot_S5000x3_S3x16_S5000x16_1_0_0_1_n_n_wf : DotDims.WF S5000x3 S3x16 S5000x16 [1] [0] [0] [1] [] []
  gather_S500000x16_S4500000x1_S4500000x16_1_0_n_n_0_1_116_wf : GatherDims.WF S500000x16 S4500000x1 S4500000x16 [1] [0] [] [0] [] 1 ![1, 16]
  scatter_S500000x16_S4500000x1_S4500000x16_1_0_0_1_wf : ScatterDims.WF S500000x16 S4500000x1 S4500000x16 [1] [0] [0] 1
  dot_S5000x16_S16x1_S5000x1_1_0_0_1_n_n_wf : DotDims.WF S5000x16 S16x1 S5000x1 [1] [0] [0] [1] [] []
  gather_S500000x1_S4500000x1_S4500000x1_1_0_n_n_0_1_11_wf : GatherDims.WF S500000x1 S4500000x1 S4500000x1 [1] [0] [] [0] [] 1 ![1, 1]
  scatter_S500000x1_S4500000x1_S4500000x1_1_0_0_1_wf : ScatterDims.WF S500000x1 S4500000x1 S4500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .f32 = 32 ∨ (Rect.block (s := S500000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S500000x16.size a
  hwx0_3 : ∀ i : grid0.Coords, EltTy.bits .f32 = 32 ∨ (Rect.block (s := S500000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .f32 = 32 ∨ (Rect.block (s := S500000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S500000x16.size a
  hwx1_3 : ∀ i : grid1.Coords, EltTy.bits .f32 = 32 ∨ (Rect.block (s := S500000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S500000x1.size a
  hwx2_3 : ∀ i : grid2.Coords, EltTy.bits .f32 = 32 ∨ (Rect.block (s := S500000x1) S5000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S500000x1.size a
  hwx3_0 : ∀ i : grid3.Coords, EltTy.bits .f32 = 32 ∨ (Rect.block (s := S500000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S500000x1.size a
  hwx3_1 : ∀ i : grid3.Coords, EltTy.bits .f32 = 32 ∨ (Rect.block (s := S500000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S500000x1.size a
  hwx3_3 : ∀ i : grid3.Coords, EltTy.bits .f32 = 32 ∨ (Rect.block (s := S500000x1) S5000x1.size (cc3_transform_3 i) (hinb3_3 i)).WholeWords (EltTy.packing .f32)

variable [Facts₀]

def scatter_S500000_S4500000x1_S4500000_n_0_0_1 : ScatterDims S500000 S4500000x1 S4500000 where
  updateWindowDims := []
  insertedWindowDims := [0]
  scatterDimsToOperandDims := [0]
  indexVectorDim := 1
  wf := scatter_S500000_S4500000x1_S4500000_n_0_0_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S500000x16_S4500000x1_S4500000x16_1_0_n_n_0_1_116 : GatherDims S500000x16 S4500000x1 S4500000x16 where
  offsetDims := [1]
  collapsedSliceDims := [0]
  operandBatchingDims := []
  startIndicesBatchingDims := []
  startIndexMap := [0]
  indexVectorDim := 1
  sliceSizes := ![1, 16]
  wf := gather_S500000x16_S4500000x1_S4500000x16_1_0_n_n_0_1_116_wf
def scatter_S500000x16_S4500000x1_S4500000x16_1_0_0_1 : ScatterDims S500000x16 S4500000x1 S4500000x16 where
  updateWindowDims := [1]
  insertedWindowDims := [0]
  scatterDimsToOperandDims := [0]
  indexVectorDim := 1
  wf := scatter_S500000x16_S4500000x1_S4500000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S500000x1_S4500000x1_S4500000x1_1_0_n_n_0_1_11 : GatherDims S500000x1 S4500000x1 S4500000x1 where
  offsetDims := [1]
  collapsedSliceDims := [0]
  operandBatchingDims := []
  startIndicesBatchingDims := []
  startIndexMap := [0]
  indexVectorDim := 1
  sliceSizes := ![1, 1]
  wf := gather_S500000x1_S4500000x1_S4500000x1_1_0_n_n_0_1_11_wf
def scatter_S500000x1_S4500000x1_S4500000x1_1_0_0_1 : ScatterDims S500000x1 S4500000x1 S4500000x1 where
  updateWindowDims := [1]
  insertedWindowDims := [0]
  scatterDimsToOperandDims := [0]
  indexVectorDim := 1
  wf := scatter_S500000x1_S4500000x1_S4500000x1_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S500000x3 : Shape := ⟨2, ![500000, 3]⟩
abbrev S2x4000000 : Shape := ⟨2, ![2, 4000000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S500000 : Shape := ⟨1, ![500000]⟩
abbrev S1x4000000 : Shape := ⟨2, ![1, 4000000]⟩
abbrev S4000000 : Shape := ⟨1, ![4000000]⟩
abbrev S4500000 : Shape := ⟨1, ![4500000]⟩
abbrev S_ : Shape := ⟨0, ![]⟩
abbrev S4500000x1 : Shape := ⟨2, ![4500000, 1]⟩
abbrev S500000x16 : Shape := ⟨2, ![500000, 16]⟩
abbrev S4500000x16 : Shape := ⟨2, ![4500000, 16]⟩
abbrev S1x16 : Shape := ⟨2, ![1, 16]⟩
abbrev S500000x1 : Shape := ⟨2, ![500000, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S500000x3, .f32⟩
  | 1 => ⟨S2x4000000, .i32⟩
  | 2 => ⟨S3x16, .f32⟩
  | 3 => ⟨S16, .f32⟩
  | 4 => ⟨S16x1, .f32⟩
  | 5 => ⟨S1, .f32⟩
  | 6 => ⟨S500000, .i32⟩
  | 7 => ⟨S1x4000000, .i32⟩
  | 8 => ⟨S4000000, .i32⟩
  | 9 => ⟨S4500000, .i32⟩
  | 10 => ⟨S1x4000000, .i32⟩
  | 11 => ⟨S4000000, .i32⟩
  | 12 => ⟨S4500000, .i32⟩
  | 13 => ⟨S_, .f32⟩
  | 14 => ⟨S4500000, .f32⟩
  | 15 => ⟨S_, .f32⟩
  | 16 => ⟨S500000, .f32⟩
  | 17 => ⟨S4500000x1, .i32⟩
  | 18 => ⟨S500000, .f32⟩
  | 19 => ⟨S_, .f32⟩
  | 20 => ⟨S500000, .f32⟩
  | 21 => ⟨S500000, .i1⟩
  | 22 => ⟨S_, .f32⟩
  | 23 => ⟨S500000, .f32⟩
  | 24 => ⟨S500000, .f32⟩
  | 25 => ⟨S500000, .f32⟩
  | 26 => ⟨S_, .f32⟩
  | 27 => ⟨S_, .f32⟩
  | 28 => ⟨S500000, .f32⟩
  | 29 => ⟨S500000, .f32⟩
  | 30 => ⟨S_, .i32⟩
  | 31 => ⟨S4500000, .i32⟩
  | 32 => ⟨S4500000, .i1⟩
  | 33 => ⟨S_, .i32⟩
  | 34 => ⟨S4500000, .i32⟩
  | 35 => ⟨S4500000, .i32⟩
  | 36 => ⟨S4500000, .i32⟩
  | 37 => ⟨S4500000x1, .i32⟩
  | 38 => ⟨S4500000, .f32⟩
  | 39 => ⟨S_, .i32⟩
  | 40 => ⟨S4500000, .i32⟩
  | 41 => ⟨S4500000, .i1⟩
  | 42 => ⟨S_, .i32⟩
  | 43 => ⟨S4500000, .i32⟩
  | 44 => ⟨S4500000, .i32⟩
  | 45 => ⟨S4500000, .i32⟩
  | 46 => ⟨S4500000x1, .i32⟩
  | 47 => ⟨S4500000, .f32⟩
  | 48 => ⟨S4500000, .f32⟩
  | 49 => ⟨S500000x16, .f32⟩
  | 50 => ⟨S_, .i32⟩
  | 51 => ⟨S4500000, .i32⟩
  | 52 => ⟨S4500000, .i1⟩
  | 53 => ⟨S_, .i32⟩
  | 54 => ⟨S4500000, .i32⟩
  | 55 => ⟨S4500000, .i32⟩
  | 56 => ⟨S4500000, .i32⟩
  | 57 => ⟨S4500000x1, .i32⟩
  | 58 => ⟨S4500000x16, .f32⟩
  | 59 => ⟨S4500000x1, .f32⟩
  | 60 => ⟨S4500000x16, .f32⟩
  | 61 => ⟨S4500000x16, .f32⟩
  | 62 => ⟨S_, .f32⟩
  | 63 => ⟨S500000x16, .f32⟩
  | 64 => ⟨S4500000x1, .i32⟩
  | 65 => ⟨S500000x16, .f32⟩
  | 66 => ⟨S1x16, .f32⟩
  | 67 => ⟨S500000x16, .f32⟩
  | 68 => ⟨S500000x16, .f32⟩
  | 69 => ⟨S_, .f32⟩
  | 70 => ⟨S500000x16, .f32⟩
  | 71 => ⟨S500000x16, .f32⟩
  | 72 => ⟨S500000, .i32⟩
  | 73 => ⟨S1x4000000, .i32⟩
  | 74 => ⟨S4000000, .i32⟩
  | 75 => ⟨S4500000, .i32⟩
  | 76 => ⟨S1x4000000, .i32⟩
  | 77 => ⟨S4000000, .i32⟩
  | 78 => ⟨S4500000, .i32⟩
  | 79 => ⟨S_, .f32⟩
  | 80 => ⟨S4500000, .f32⟩
  | 81 => ⟨S_, .f32⟩
  | 82 => ⟨S500000, .f32⟩
  | 83 => ⟨S4500000x1, .i32⟩
  | 84 => ⟨S500000, .f32⟩
  | 85 => ⟨S_, .f32⟩
  | 86 => ⟨S500000, .f32⟩
  | 87 => ⟨S500000, .i1⟩
  | 88 => ⟨S_, .f32⟩
  | 89 => ⟨S500000, .f32⟩
  | 90 => ⟨S500000, .f32⟩
  | 91 => ⟨S500000, .f32⟩
  | 92 => ⟨S_, .f32⟩
  | 93 => ⟨S_, .f32⟩
  | 94 => ⟨S500000, .f32⟩
  | 95 => ⟨S500000, .f32⟩
  | 96 => ⟨S_, .i32⟩
  | 97 => ⟨S4500000, .i32⟩
  | 98 => ⟨S4500000, .i1⟩
  | 99 => ⟨S_, .i32⟩
  | 100 => ⟨S4500000, .i32⟩
  | 101 => ⟨S4500000, .i32⟩
  | 102 => ⟨S4500000, .i32⟩
  | 103 => ⟨S4500000x1, .i32⟩
  | 104 => ⟨S4500000, .f32⟩
  | 105 => ⟨S_, .i32⟩
  | 106 => ⟨S4500000, .i32⟩
  | 107 => ⟨S4500000, .i1⟩
  | 108 => ⟨S_, .i32⟩
  | 109 => ⟨S4500000, .i32⟩
  | 110 => ⟨S4500000, .i32⟩
  | 111 => ⟨S4500000, .i32⟩
  | 112 => ⟨S4500000x1, .i32⟩
  | 113 => ⟨S4500000, .f32⟩
  | 114 => ⟨S4500000, .f32⟩
  | 115 => ⟨S500000x1, .f32⟩
  | 116 => ⟨S_, .i32⟩
  | 117 => ⟨S4500000, .i32⟩
  | 118 => ⟨S4500000, .i1⟩
  | 119 => ⟨S_, .i32⟩
  | 120 => ⟨S4500000, .i32⟩
  | 121 => ⟨S4500000, .i32⟩
  | 122 => ⟨S4500000, .i32⟩
  | 123 => ⟨S4500000x1, .i32⟩
  | 124 => ⟨S4500000x1, .f32⟩
  | 125 => ⟨S4500000x1, .f32⟩
  | 126 => ⟨S4500000x1, .f32⟩
  | 127 => ⟨S_, .f32⟩
  | _ => ⟨S500000x3, .f32⟩

abbrev hbmTy0_1 (i : Nat) : BufTy := match i % 128 with
  | 0 => ⟨S500000x1, .f32⟩
  | 1 => ⟨S4500000x1, .i32⟩
  | 2 => ⟨S500000x1, .f32⟩
  | 3 => ⟨S1x1, .f32⟩
  | 4 => ⟨S500000x1, .f32⟩
  | 5 => ⟨S500000x1, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S500000_S4500000_d0 : Shape.Concatenates [S4000000, S500000] S4500000 0
  slices_S2x4000000_S1x4000000_1_0 : S2x4000000.Slices ![1, 0] S1x4000000
  bcast_S_S4500000 : S_.BroadcastsInDim S4500000 (![] : Fin 0 → Fin S4500000.rank)
  bcast_S_S500000 : S_.BroadcastsInDim S500000 (![] : Fin 0 → Fin S500000.rank)
  bcast_S4500000_S4500000x1_0 : S4500000.BroadcastsInDim S4500000x1 (![0] : Fin 1 → Fin S4500000x1.rank)
  bcast_S4500000x1_S4500000x16_0_1 : S4500000x1.BroadcastsInDim S4500000x16 (![0, 1] : Fin 2 → Fin S4500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S4500000x1_S4500000_n_0_0_1_wf : ScatterDims.WF S500000 S4500000x1 S4500000 [] [0] [0] 1
  gather_S500000_S4500000x1_S4500000_n_0_n_n_0_1_1_wf : GatherDims.WF S500000 S4500000x1 S4500000 [] [0] [] [0] [] 1 ![1]
  dot_S500000x3_S3x16_S500000x16_1_0_0_1_n_n_wf : DotDims.WF S500000x3 S3x16 S500000x16 [1] [0] [0] [1] [] []
  gather_S500000x16_S4500000x1_S4500000x16_1_0_n_n_0_1_116_wf : GatherDims.WF S500000x16 S4500000x1 S4500000x16 [1] [0] [] [0] [] 1 ![1, 16]
  scatter_S500000x16_S4500000x1_S4500000x16_1_0_0_1_wf : ScatterDims.WF S500000x16 S4500000x1 S4500000x16 [1] [0] [0] 1
  dot_S500000x16_S16x1_S500000x1_1_0_0_1_n_n_wf : DotDims.WF S500000x16 S16x1 S500000x1 [1] [0] [0] [1] [] []
  gather_S500000x1_S4500000x1_S4500000x1_1_0_n_n_0_1_11_wf : GatherDims.WF S500000x1 S4500000x1 S4500000x1 [1] [0] [] [0] [] 1 ![1, 1]
  scatter_S500000x1_S4500000x1_S4500000x1_1_0_0_1_wf : ScatterDims.WF S500000x1 S4500000x1 S4500000x1 [1] [0] [0] 1

variable [Facts₀]

def scatter_S500000_S4500000x1_S4500000_n_0_0_1 : ScatterDims S500000 S4500000x1 S4500000 where
  updateWindowDims := []
  insertedWindowDims := [0]
  scatterDimsToOperandDims := [0]
  indexVectorDim := 1
  wf := scatter_S500000_S4500000x1_S4500000_n_0_0_1_wf
def gather_S500000_S4500000x1_S4500000_n_0_n_n_0_1_1 : GatherDims S500000 S4500000x1 S4500000 where
  offsetDims := []
  collapsedSliceDims := [0]
  operandBatchingDims := []
  startIndicesBatchingDims := []
  startIndexMap := [0]
  indexVectorDim := 1
  sliceSizes := ![1]
  wf := gather_S500000_S4500000x1_S4500000_n_0_n_n_0_1_1_wf
def dot_S500000x3_S3x16_S500000x16_1_0_0_1_n_n : DotDims S500000x3 S3x16 S500000x16 where
  lhsContracting := [1]
  rhsContracting := [0]
  lhsNonContracting := [0]
  rhsNonContracting := [1]
  lhsBatch := []
  rhsBatch := []
  wf := dot_S500000x3_S3x16_S500000x16_1_0_0_1_n_n_wf
def gather_S500000x16_S4500000x1_S4500000x16_1_0_n_n_0_1_116 : GatherDims S500000x16 S4500000x1 S4500000x16 where
  offsetDims := [1]
  collapsedSliceDims := [0]
  operandBatchingDims := []
  startIndicesBatchingDims := []
  startIndexMap := [0]
  indexVectorDim := 1
  sliceSizes := ![1, 16]
  wf := gather_S500000x16_S4500000x1_S4500000x16_1_0_n_n_0_1_116_wf
def scatter_S500000x16_S4500000x1_S4500000x16_1_0_0_1 : ScatterDims S500000x16 S4500000x1 S4500000x16 where
  updateWindowDims := [1]
  insertedWindowDims := [0]
  scatterDimsToOperandDims := [0]
  indexVectorDim := 1
  wf := scatter_S500000x16_S4500000x1_S4500000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf
def gather_S500000x1_S4500000x1_S4500000x1_1_0_n_n_0_1_11 : GatherDims S500000x1 S4500000x1 S4500000x1 where
  offsetDims := [1]
  collapsedSliceDims := [0]
  operandBatchingDims := []
  startIndicesBatchingDims := []
  startIndexMap := [0]
  indexVectorDim := 1
  sliceSizes := ![1, 1]
  wf := gather_S500000x1_S4500000x1_S4500000x1_1_0_n_n_0_1_11_wf
def scatter_S500000x1_S4500000x1_S4500000x1_1_0_0_1 : ScatterDims S500000x1 S4500000x1 S4500000x1 where
  updateWindowDims := [1]
  insertedWindowDims := [0]
  scatterDimsToOperandDims := [0]
  indexVectorDim := 1
  wf := scatter_S500000x1_S4500000x1_S4500000x1_1_0_0_1_wf

class Facts : Prop extends Facts₀ where

variable [Facts]
-- ==== Proof.HostR.lean ====
/-
  The idealized reference's program as named functions of the argument arrays: the edge endpoints, the degree
  normalisation, the edge weights d(source)·d(target), and a layer "gather the rows of H·W along the edges, scale each
  by its edge weight, add them up at the targets, add the bias", exactly as the program's host operations compose them.
-/
import proofs.«160642_j70171175682690_1_alg».proof.Proof.Gen.ReferenceIdeal
import Idealize.ShloMosaic.PureOps.Contract
import Idealize.ShloMosaic.PureOps.Ideal

noncomputable section

namespace Cert.ReferenceIdeal.HostR

open Cert.ReferenceIdeal Cert.ReferenceIdeal.Gen Idealize.ShloMosaic

/-- The source endpoint of every edge: row 0 of the edge array, then the self loops 0 … 499999. -/
def rowW (E : IVec S2x4000000 32) : IVec S4500000 32 :=
  concatenate S4500000 0 [⟨S4000000, (shapeCast _ (extractStridedSlice S1x4000000 ![0, 0] E slices_S2x4000000_S1x4000000_0_0) shapeCasts_S1x4000000_S4000000)⟩, ⟨S500000, (iotaInDim S500000 32 0)⟩] concatenates_S4000000_S500000_S4500000_d0

/-- The target endpoint of every edge: row 1 of the edge array, then the self loops. -/
def colW (E : IVec S2x4000000 32) : IVec S4500000 32 :=
  concatenate S4500000 0 [⟨S4000000, (shapeCast _ (extractStridedSlice S1x4000000 ![1, 0] E slices_S2x4000000_S1x4000000_1_0) shapeCasts_S1x4000000_S4000000)⟩, ⟨S500000, (iotaInDim S500000 32 0)⟩] concatenates_S4000000_S500000_S4500000_d0

/-- An index vector as the one-column array of start indices a gather or a scatter takes. -/
def colIdx (w : IVec S4500000 32) : IVec S4500000x1 32 :=
  broadcastInDim S4500000x1 ![0] bcast_S4500000_S4500000x1_0 w

/-- The start indices of an indexed read: a negative word is wrapped by the number of nodes first. -/
def wrapIdx (w : IVec S4500000 32) : IVec S4500000x1 32 :=
  broadcastInDim S4500000x1 ![0] bcast_S4500000_S4500000x1_0 (select (cmpi .slt w (broadcastInDim S4500000 ![] bcast_S_S4500000 (constantI S_ 32 0#32))) (addi w (broadcastInDim S4500000 ![] bcast_S_S4500000 (constantI S_ 32 500000#32))) w)

/-- The in-degree of every node (self loop included): ones added at the edges' targets. -/
def degV (col : IVec S4500000 32) : FVec Ideal S500000 .f32 :=
  Host.scatterAdd scatter_S500000_S4500000x1_S4500000_n_0_0_1 (broadcastInDim S500000 ![] bcast_S_S500000 (constant S_ .f32 0x00000000#32)) (broadcastInDim S4500000x1 ![0] bcast_S4500000_S4500000x1_0 col) (broadcastInDim S4500000 ![] bcast_S_S4500000 (constant S_ .f32 0x3F800000#32))

/-- The normalisation of every node: 1/√(max(deg, 1)) where the degree is positive, else 0. -/
def dinvV (deg : FVec Ideal S500000 .f32) : FVec Ideal S500000 .f32 :=
  select (cmpf (F := Ideal) .ogt deg (broadcastInDim S500000 ![] bcast_S_S500000 (constant S_ .f32 0x00000000#32))) (Host.rsqrt (maximumf deg (broadcastInDim S500000 ![] bcast_S_S500000 (constant S_ .f32 0x3F800000#32)))) (broadcastInDim S500000 ![] bcast_S_S500000 (id (constant S_ .f32 0x00000000#32)))

/-- The zero arrays the aggregations accumulate into. -/
def zero16 : FVec Ideal S500000x16 .f32 := broadcastInDim S500000x16 ![] bcast_S_S500000x16 (constant S_ .f32 0x00000000#32)
def zero1 : FVec Ideal S500000x1 .f32 := broadcastInDim S500000x1 ![] bcast_S_S500000x1 (constant S_ .f32 0x00000000#32)

/-- The weight of every edge: the normalisation read at its source times the normalisation read at its target. -/
def nrmV (dinv : FVec Ideal S500000 .f32) (wrow wcol : IVec S4500000x1 32) : FVec Ideal S4500000 .f32 :=
  mulf (Host.gather gather_S500000_S4500000x1_S4500000_n_0_n_n_0_1_1 dinv wrow) (Host.gather gather_S500000_S4500000x1_S4500000_n_0_n_n_0_1_1 dinv wcol)

/-- Layer 1 before its activation: 3 features in, 16 out. -/
def layer16 (X : FVec Ideal S500000x3 .f32) (W : FVec Ideal S3x16 .f32) (b : FVec Ideal S16 .f32)
    (nrm : FVec Ideal S4500000 .f32) (cidx wrow : IVec S4500000x1 32) : FVec Ideal S500000x16 .f32 :=
  addf (Host.scatterAdd scatter_S500000x16_S4500000x1_S4500000x16_1_0_0_1 zero16 cidx (mulf (Host.gather gather_S500000x16_S4500000x1_S4500000x16_1_0_n_n_0_1_116 (Host.dotGeneral dot_S500000x3_S3x16_S500000x16_1_0_0_1_n_n none X W) wrow) (broadcastInDim S4500000x16 ![0, 1] bcast_S4500000x1_S4500000x16_0_1 (broadcastInDim S4500000x1 ![0] bcast_S4500000_S4500000x1_0 nrm)))) (broadcastInDim S500000x16 ![0, 1] bcast_S1x16_S500000x16_0_1 (broadcastInDim S1x16 ![1] bcast_S16_S1x16_1 b))

/-- Layer 2: 16 features in, 1 out. -/
def layer1 (H : FVec Ideal S500000x16 .f32) (W : FVec Ideal S16x1 .f32) (b : FVec Ideal S1 .f32)
    (nrm : FVec Ideal S4500000 .f32) (cidx wrow : IVec S4500000x1 32) : FVec Ideal S500000x1 .f32 :=
  addf (Host.scatterAdd scatter_S500000x1_S4500000x1_S4500000x1_1_0_0_1 zero1 cidx (mulf (Host.gather gather_S500000x1_S4500000x1_S4500000x1_1_0_n_n_0_1_11 (Host.dotGeneral dot_S500000x16_S16x1_S500000x1_1_0_0_1_n_n none H W) wrow) (broadcastInDim S4500000x1 ![0] bcast_S4500000_S4500000x1_0 nrm))) (broadcastInDim S500000x1 ![0, 1] bcast_S1x1_S500000x1_0_1 (broadcastInDim S1x1 ![1] bcast_S1_S1x1_1 b))

/-- The reference's result: layer 2 of the positive part of layer 1. -/
def refOut (X : FVec Ideal S500000x3 .f32) (E : IVec S2x4000000 32) (W1 : FVec Ideal S3x16 .f32) (b1 : FVec Ideal S16 .f32)
    (W2 : FVec Ideal S16x1 .f32) (b2 : FVec Ideal S1 .f32) : FVec Ideal S500000x1 .f32 :=
  layer1 (maximumf (layer16 X W1 b1 (nrmV (dinvV (degV (colW E))) (wrapIdx (rowW E)) (wrapIdx (colW E))) (colIdx (colW E)) (wrapIdx (rowW E))) zero16)
    W2 b2 (nrmV (dinvV (degV (colW E))) (wrapIdx (rowW E)) (wrapIdx (colW E))) (colIdx (colW E)) (wrapIdx (rowW E))

end Cert.ReferenceIdeal.HostR

end
-- ==== Proof.RefValue.lean ====
/-
  The idealized reference's run ends with its result buffer at `refOut` of the argument arrays: the composed term of its
  host operations is that composition of named functions, operation for operation.
-/
import proofs.«160642_j70171175682690_1_alg».proof.Proof.RefRun
import proofs.«160642_j70171175682690_1_alg».proof.Proof.HostR

noncomputable section

namespace Cert.ReferenceIdeal.RefValue

open Cert.ReferenceIdeal Cert.ReferenceIdeal.Gen Idealize.ShloMosaic Idealize.ShloMosaic.TcCoe Idealize.SL.Sem

set_option maxRecDepth 8192 in
/-- The run's composed term is `refOut` of the arguments' launch contents. -/
theorem res_eq (m : (ℓ : Loc nD τ sig) → Buf (Elt Ideal) ℓ) (c : Dev nD) :
    Cert.ReferenceIdeal.ValueP.res_main_v97 (F := Ideal) m c
      = HostR.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v97 HostR.refOut HostR.layer1 HostR.layer16 HostR.nrmV HostR.dinvV HostR.degV
    HostR.wrapIdx HostR.colIdx HostR.rowW HostR.colW HostR.zero16 HostR.zero1
  rfl

end Cert.ReferenceIdeal.RefValue

end
-- ==== Proof.KRun.lean ====
/-
  The idealized kernel's run with its result named: every weakly fair execution of @main terminates, nothing faulting,
  with the result buffer holding what the last of the four regions leaves in it — the fold of the host stretches and the
  regions' write-backs from the launch memory, read at the result's reference — and the arguments as launched.
-/
import proofs.«160642_j70171175682690_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the segments from the launch to the return, its last thread state read against the final state at the
    result's reference as well as at the arguments'. -/
theorem run_value : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.Spec.lean ====
/-
  The two dense stages of a graph-convolution layer as whole-array functions over the extended reals, index by index.

  * `transform X W d`: row p of X against column l of W (the sum over the shared axis of the products), the result
    scaled by row p's entry of the one-lane column d:  (X·W)[p, l] · d[p].
  * `finalize A d b`: entry (p, l) of A scaled by row p's entry of the column d, plus lane l's entry of the one-row
    array b:  A[p, l] · d[p] + b[l];  `finalizeRelu` is the maximum of that and zero.
-/
import Idealize.ShloMosaic.PureOps.Ideal
import Idealize.ShloMosaic.Lib.ValueIdx

noncomputable section

open scoped BigOperators

namespace Cert.Gcn

open Idealize.ShloMosaic Idealize.ShloMosaic.ValueIdx

variable {n ci co : Nat}

/-- (X·W)[p, l] · d[p]. -/
def transformAt (X : (⟨2, ![n, ci]⟩ : Shape).Idx → EReal) (W : (⟨2, ![ci, co]⟩ : Shape).Idx → EReal)
    (d : (⟨2, ![n, 1]⟩ : Shape).Idx → EReal) (p : Fin n) (l : Fin co) : EReal :=
  (∑ c : Fin ci, X (ix2 p c) * W (ix2 c l)) * d (ix2 p 0)

/-- The array whose entry (p, l) is (X·W)[p, l] · d[p]. -/
def transform (X : (⟨2, ![n, ci]⟩ : Shape).Idx → EReal) (W : (⟨2, ![ci, co]⟩ : Shape).Idx → EReal)
    (d : (⟨2, ![n, 1]⟩ : Shape).Idx → EReal) : (⟨2, ![n, co]⟩ : Shape).Idx → EReal :=
  fun j => transformAt X W d (j 0) (j 1)

theorem transform_apply (X : (⟨2, ![n, ci]⟩ : Shape).Idx → EReal) (W : (⟨2, ![ci, co]⟩ : Shape).Idx → EReal)
    (d : (⟨2, ![n, 1]⟩ : Shape).Idx → EReal) (p : Fin n) (l : Fin co) :
    transform X W d (ix2 p l) = (∑ c : Fin ci, X (ix2 p c) * W (ix2 c l)) * d (ix2 p 0) := rfl

/-- A[p, l] · d[p] + b[l]. -/
def finalizeAt (A : (⟨2, ![n, co]⟩ : Shape).Idx → EReal) (d : (⟨2, ![n, 1]⟩ : Shape).Idx → EReal)
    (b : (⟨2, ![1, co]⟩ : Shape).Idx → EReal) (p : Fin n) (l : Fin co) : EReal :=
  A (ix2 p l) * d (ix2 p 0) + b (ix2 0 l)

/-- The array whose entry (p, l) is A[p, l] · d[p] + b[l]. -/
def finalize (A : (⟨2, ![n, co]⟩ : Shape).Idx → EReal) (d : (⟨2, ![n, 1]⟩ : Shape).Idx → EReal)
    (b : (⟨2, ![1, co]⟩ : Shape).Idx → EReal) : (⟨2, ![n, co]⟩ : Shape).Idx → EReal :=
  fun j => finalizeAt A d b (j 0) (j 1)

theorem finalize_apply (A : (⟨2, ![n, co]⟩ : Shape).Idx → EReal) (d : (⟨2, ![n, 1]⟩ : Shape).Idx → EReal)
    (b : (⟨2, ![1, co]⟩ : Shape).Idx → EReal) (p : Fin n) (l : Fin co) :
    finalize A d b (ix2 p l) = A (ix2 p l) * d (ix2 p 0) + b (ix2 0 l) := rfl

/-- The array whose entry (p, l) is max (A[p, l] · d[p] + b[l]) 0. -/
def finalizeRelu (A : (⟨2, ![n, co]⟩ : Shape).Idx → EReal) (d : (⟨2, ![n, 1]⟩ : Shape).Idx → EReal)
    (b : (⟨2, ![1, co]⟩ : Shape).Idx → EReal) : (⟨2, ![n, co]⟩ : Shape).Idx → EReal :=
  fun j => max (finalizeAt A d b (j 0) (j 1)) 0

theorem finalizeRelu_apply (A : (⟨2, ![n, co]⟩ : Shape).Idx → EReal) (d : (⟨2, ![n, 1]⟩ : Shape).Idx → EReal)
    (b : (⟨2, ![1, co]⟩ : Shape).Idx → EReal) (p : Fin n) (l : Fin co) :
    finalizeRelu A d b (ix2 p l) = max (A (ix2 p l) * d (ix2 p 0) + b (ix2 0 l)) 0 := rfl

end Cert.Gcn

end
-- ==== Proof.HostK.lean ====
/-
  The host side of the idealized kernel's program as named functions of the argument arrays: the edge endpoints, the
  degree normalisation, and for each layer the aggregation "gather the scaled rows along the edges, add them up at the
  targets", exactly as the program's host operations compose them.
-/
import proofs.«160642_j70171175682690_1_alg».proof.Proof.Gen.KernelIdeal
import Idealize.ShloMosaic.PureOps.Contract
import Idealize.ShloMosaic.PureOps.Ideal
import proofs.«160642_j70171175682690_1_alg».proof.Proof.Spec

noncomputable section

namespace Cert.KernelIdeal.HostK

open Cert.KernelIdeal Cert.KernelIdeal.Gen Idealize.ShloMosaic

/-- The source endpoint of every edge: row 0 of the edge array, then the self loops 0 … 499999. -/
def rowW (E : IVec S2x4000000 32) : IVec S4500000 32 :=
  concatenate S4500000 0 [⟨S4000000, (shapeCast _ (extractStridedSlice S1x4000000 ![0, 0] E slices_S2x4000000_S1x4000000_0_0) shapeCasts_S1x4000000_S4000000)⟩, ⟨S500000, (iotaInDim S500000 32 0)⟩] concatenates_S4000000_S500000_S4500000_d0

/-- The target endpoint of every edge: row 1 of the edge array, then the self loops. -/
def colW (E : IVec S2x4000000 32) : IVec S4500000 32 :=
  concatenate S4500000 0 [⟨S4000000, (shapeCast _ (extractStridedSlice S1x4000000 ![1, 0] E slices_S2x4000000_S1x4000000_1_0) shapeCasts_S1x4000000_S4000000)⟩, ⟨S500000, (iotaInDim S500000 32 0)⟩] concatenates_S4000000_S500000_S4500000_d0

/-- An index vector as the one-column array of start indices a gather or a scatter takes. -/
def colIdx (w : IVec S4500000 32) : IVec S4500000x1 32 :=
  broadcastInDim S4500000x1 ![0] bcast_S4500000_S4500000x1_0 w

/-- The start indices of an indexed read: a negative word is wrapped by the number of nodes first. -/
def wrapIdx (w : IVec S4500000 32) : IVec S4500000x1 32 :=
  broadcastInDim S4500000x1 ![0] bcast_S4500000_S4500000x1_0 (select (cmpi .slt w (broadcastInDim S4500000 ![] bcast_S_S4500000 (constantI S_ 32 0#32))) (addi w (broadcastInDim S4500000 ![] bcast_S_S4500000 (constantI S_ 32 500000#32))) w)

/-- The in-degree of every node (self loop included): ones added at the edges' targets. -/
def degV (col : IVec S4500000 32) : FVec Ideal S500000 .f32 :=
  Host.scatterAdd scatter_S500000_S4500000x1_S4500000_n_0_0_1 (broadcastInDim S500000 ![] bcast_S_S500000 (constant S_ .f32 0x00000000#32)) (broadcastInDim S4500000x1 ![0] bcast_S4500000_S4500000x1_0 col) (broadcastInDim S4500000 ![] bcast_S_S4500000 (constant S_ .f32 0x3F800000#32))

/-- The normalisation of every node: 1/√(max(deg, 1)) where the degree is positive, else 0. -/
def dinvV (deg : FVec Ideal S500000 .f32) : FVec Ideal S500000 .f32 :=
  select (cmpf (F := Ideal) .ogt deg (broadcastInDim S500000 ![] bcast_S_S500000 (constant S_ .f32 0x00000000#32))) (Host.rsqrt (maximumf deg (broadcastInDim S500000 ![] bcast_S_S500000 (constant S_ .f32 0x3F800000#32)))) (broadcastInDim S500000 ![] bcast_S_S500000 (id (constant S_ .f32 0x00000000#32)))

/-- The zero arrays the aggregations accumulate into. -/
def zero16 : FVec Ideal S500000x16 .f32 := broadcastInDim S500000x16 ![] bcast_S_S500000x16 (constant S_ .f32 0x00000000#32)
def zero1 : FVec Ideal S500000x1 .f32 := broadcastInDim S500000x1 ![] bcast_S_S500000x1 (constant S_ .f32 0x00000000#32)

/-- The normalisation as the one-lane column the regions read. -/
def dcol (dinv : FVec Ideal S500000 .f32) : FVec Ideal S500000x1 .f32 := shapeCast _ dinv shapeCasts_S500000_S500000x1

/-- Layer 1's aggregation: rows of the scaled features gathered at the edges' sources, added at the targets. -/
def agg16 (T : FVec Ideal S500000x16 .f32) (cidx wrow : IVec S4500000x1 32) : FVec Ideal S500000x16 .f32 :=
  Host.scatterAdd scatter_S500000x16_S4500000x1_S4500000x16_1_0_0_1 zero16 cidx (Host.gather gather_S500000x16_S4500000x1_S4500000x16_1_0_n_n_0_1_116 T wrow)

/-- Layer 2's aggregation, on one lane. -/
def agg1 (T : FVec Ideal S500000x1 .f32) (cidx wrow : IVec S4500000x1 32) : FVec Ideal S500000x1 .f32 :=
  Host.scatterAdd scatter_S500000x1_S4500000x1_S4500000x1_1_0_0_1 zero1 cidx (Host.gather gather_S500000x1_S4500000x1_S4500000x1_1_0_n_n_0_1_11 T wrow)

/-- The biases as the one-row arrays the regions read. -/
def brow16 (b : FVec Ideal S16 .f32) : FVec Ideal S1x16 .f32 := shapeCast _ b shapeCasts_S16_S1x16
def brow1 (b : FVec Ideal S1 .f32) : FVec Ideal S1x1 .f32 := shapeCast _ b shapeCasts_S1_S1x1

/-- The kernel's result as one function of the argument arrays: transform, aggregate, finalize (with the positive
    part), and the same again on one lane, every stage scaled by the normalisation column. -/
def kOut (X : FVec Ideal S500000x3 .f32) (E : IVec S2x4000000 32) (W1 : FVec Ideal S3x16 .f32) (b1 : FVec Ideal S16 .f32)
    (W2 : FVec Ideal S16x1 .f32) (b2 : FVec Ideal S1 .f32) : FVec Ideal S500000x1 .f32 :=
  Cert.Gcn.finalize (n := 500000) (co := 1)
    (agg1 (Cert.Gcn.transform (n := 500000) (ci := 16) (co := 1)
        (Cert.Gcn.finalizeRelu (n := 500000) (co := 16)
          (agg16 (Cert.Gcn.transform (n := 500000) (ci := 3) (co := 16) X W1 (dcol (dinvV (degV (colW E)))))
            (colIdx (colW E)) (wrapIdx (rowW E)))
          (dcol (dinvV (degV (colW E)))) (brow16 b1))
        W2 (dcol (dinvV (degV (colW E)))))
      (colIdx (colW E)) (wrapIdx (rowW E)))
    (dcol (dinvV (degV (colW E)))) (brow1 b2)

end Cert.KernelIdeal.HostK

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.KReg0.lean ====
/-
  Region 0 of the graph convolution: the first layer's dense stage. The pipeline walks the 500000 rows in a hundred
  blocks of 5000; at each block the body multiplies the block's 5000×3 rows by the whole 3×16 matrix and scales row p
  of the product by the p-th entry of the one-lane column block. Here: that block, entry by entry; what each grid
  point writes back is the matching block of ONE whole-array function of the three input arrays; the blocks cover the
  array; so the output array after the region is that function — for any contents of the buffers at region entry.
-/
import proofs.«160642_j70171175682690_1_alg».proof.Proof.Gen.KernelIdeal.Frame
import proofs.«160642_j70171175682690_1_alg».proof.Proof.Spec
import proofs.«160642_j70171175682690_1_alg».proof.Proof.LibPlainDot
import proofs.«160642_j70171175682690_1_alg».proof.Proof.LibKeepdims
import Idealize.ShloMosaic.Lib.Pipeline.Value
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

/-- Both zero offsets, spelt as the constant function. -/
theorem zero_offsets : (![0, 0] : Fin 2 → Nat) = fun _ => 0 := funext fun a => by fin_cases a <;> rfl

/-- The block the body stores, at row r and lane l: row r of the first block against column l of the second
    (the sum over the three shared coordinates of the products), scaled by row r's entry of the one-lane block.
    The narrowing format changes are the identity on the extended reals, the product into the zero accumulator
    is the plain matrix product, and the one-lane column is copied to every lane. -/
theorem transform_block_apply (x0 : FVec Ideal S5000x3 .f32) (x1 : FVec Ideal S3x16 .f32) (x2 : FVec Ideal S5000x1 .f32)
    (r : Fin 5000) (l : Fin 16) :
    k0_pay1 (F := Ideal) x0 x1 x2 (ix2 r l) = (∑ c : Fin 3, x0 (ix2 r c) * x1 (ix2 c l)) * x2 (ix2 r 0) := by
  unfold k0_pay1
  show (FloatOps.matmul dot_S5000x3_S3x16_S5000x16_1_0_0_1_n_n none x0 x1 (constant (F := Ideal) S5000x16 .f32 0x00000000#32)) (ix2 r l)
      * (broadcastTo S5000x16 (shapeCast S5000x1 x2 shapeCasts_S5000x1_S5000x1) broadcasts_S5000x1_S5000x16) (ix2 r l) = _
  rw [shapeCast_self]
  refine congrArg₂ (· * ·) ?_ ?_
  · exact Cert.PlainDot.matmul_zero_apply dot_S5000x3_S3x16_S5000x16_1_0_0_1_n_n rfl none x0 x1 r l
  · exact Idealize.ShloMosaic.Keepdims.broadcastTo_a1_ab_apply x2 broadcasts_S5000x1_S5000x16 r l

/-- The printed index maps, decided over the grid: at point t the output's block and the two row-blocked inputs'
    blocks are block t along the rows and block 0 along the lanes; the small second input has one block. -/
theorem block_indices0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- The whole-array function at an array index i, from three blocks read at block row r and lane l, when the
    blocks' entries are the arrays' entries at i's row and lane. -/
theorem transform_of_reads (A : S500000x3.Idx → EReal) (W : S3x16.Idx → EReal) (d : S500000x1.Idx → EReal)
    (x0 : FVec Ideal S5000x3 .f32) (x1 : FVec Ideal S3x16 .f32) (x2 : FVec Ideal S5000x1 .f32)
    (i : S500000x16.Idx) (r : Fin 5000) (l : Fin 16)
    (h0 : ∀ k : Fin 3, x0 (ix2 r k) = A (ix2 (i 0) k))
    (h1 : ∀ k : Fin 3, x1 (ix2 k l) = W (ix2 k (i 1)))
    (h2 : x2 (ix2 r 0) = d (ix2 (i 0) 0)) :
    (∑ k : Fin 3, x0 (ix2 r k) * x1 (ix2 k l)) * x2 (ix2 r 0)
      = Cert.Gcn.transform (n := 500000) (ci := 3) (co := 16) A W d i := by
  show _ = (∑ k : Fin 3, A (ix2 (i 0) k) * W (ix2 k (i 1))) * d (ix2 (i 0) 0)
  rw [h2]
  refine congrArg (· * _) (Finset.sum_congr rfl fun k _ => ?_)
  rw [h0 k, h1 k]

variable (V : (c : Dev nD) → (b : Ref sig .tc) → Buf (Elt Ideal) ((c : Thread nD τ).loc b))

/-- What point t writes back is block t of the whole-array function of the three arrays as the region finds them. -/
theorem flushed0_eq (c : Dev nD) (t : Fin cfg0.N) :
    (dat0 (F := Ideal) V c).flushed 3 t = ((cfg0.win 3).blk t).view.read (Elt Ideal)
      (Cert.Gcn.transform (n := 500000) (ci := 3) (co := 16) (V c main_arg0) (V c main_arg2) (V c main_v17)) := by
  show (cfg0.win 3).cut (grid0.coords t) ((dat0 (F := Ideal) V c).after 3 t) = _
  rw [after0_3]
  unfold out0_3
  rw [View.canon_unit_zero zero_offsets]
  simp only [View.ld_unit_zero (S := S5000x3) zero_offsets, View.ld_unit_zero (S := S3x16) zero_offsets,
    View.ld_unit_zero (S := S5000x1) zero_offsets]
  obtain ⟨e00, e01, e10, e11, e20, e21, e30, e31⟩ := block_indices0 t
  funext j
  obtain ⟨p, q, rfl⟩ : ∃ (p : Fin 5000) (q : Fin 16), j = ix2 p q := ⟨j 0, j 1, eq_ix2 j⟩
  refine (transform_block_apply (iblk0 V c 0 t) (iblk0 V c 1 t) (iblk0 V c 2 t) p q).trans ?_
  show _ = Cert.Gcn.transform (n := 500000) (ci := 3) (co := 16) (V c main_arg0) (V c main_arg2) (V c main_v17)
    (((cfg0.win 3).blk t).view.emb (ix2 p q))
  refine transform_of_reads (V c main_arg0) (V c main_arg2) (V c main_v17) (iblk0 V c 0 t) (iblk0 V c 1 t) (iblk0 V c 2 t)
    (((cfg0.win 3).blk t).view.emb (ix2 p q)) p q (fun k => ?_) (fun k => ?_) ?_
  · show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 3 + 1 * k.val = k.val
      omega
  · show V c main_arg2 (((cfg0.win 1).blk t).view.emb (ix2 k q)) = _
    refine congrArg (V c main_arg2) (funext fun a => Fin.ext ?_)
    match a with
    | ⟨0, _⟩ =>
      show win0_1.index t (0 : Fin 2) * 3 + 1 * k.val = k.val
      omega
    | ⟨1, _⟩ =>
      show win0_1.index t (1 : Fin 2) * 16 + 1 * q.val = win0_3.index t (1 : Fin 2) * 16 + 1 * q.val
      omega
  · show V c main_v17 (((cfg0.win 2).blk t).view.emb (ix2 p 0)) = _
    refine congrArg (V c main_v17) (funext fun a => Fin.ext ?_)
    match a with
    | ⟨0, _⟩ =>
      show win0_2.index t (0 : Fin 2) * 5000 + 1 * p.val = win0_3.index t (0 : Fin 2) * 5000 + 1 * p.val
      omega
    | ⟨1, _⟩ =>
      show win0_2.index t (1 : Fin 2) * 1 + 1 * 0 = 0
      omega

/-- An index of the output array is in point t's block iff each coordinate is in the block's range on its axis. -/
theorem mem_block0 (t : Fin cfg0.N) (i : S500000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v18).slice (win0_3.rect t)).set ↔ _
  rw [View.set_slice_whole, Rect.mem_set_unit]
  exact Iff.rfl

/-- The hundred blocks of 5000 rows cover the 500000 rows: row i is in block i / 5000, and every point writes back. -/
theorem cover0 (i : S500000x16.Idx) :
    ∃ t : Fin cfg0.N, (cfg0.win 3).flush t = true ∧ i ∈ ((cfg0.win 3).blk t).view.set := by
  have hi0 : (i 0).val < 500000 := idx2_lt0 i
  have hi1 : (i 1).val < 16 := idx2_lt1 i
  obtain ⟨t, ht⟩ : ∃ t : Fin cfg0.N, t.val = (i 0).val / 5000 :=
    ⟨⟨(i 0).val / 5000, show (i 0).val / 5000 < 100 by omega⟩, rfl⟩
  obtain ⟨-, -, -, -, -, -, e30, e31⟩ := block_indices0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 16 ≤ (i 1).val ∧ (i 1).val < win0_3.index t (1 : Fin 2) * 16 + 16
    omega

/-- The output array after the region: the whole-array function of the three input arrays as the region finds them. -/
theorem final0 (c : Dev nD) :
    (dat0 (F := Ideal) V c).arrAt 3 cfg0.N
      = Cert.Gcn.transform (n := 500000) (ci := 3) (co := 16) (V c main_arg0) (V c main_arg2) (V c main_v17) :=
  (dat0 (F := Ideal) V c).arrAt_eq_of_cover 3 _ (fun t _ => flushed0_eq V c t) cover0

end Cert.KernelIdeal.Regions

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KReg1.lean ====
/-
  Region 1 of the graph convolution: the first layer's closing stage. The pipeline walks the 500000 rows in a hundred
  blocks of 5000; at each block the body scales row p of the 5000×16 block by the p-th entry of the one-lane column
  block, adds the one-row array of 16 lane offsets to every row, and takes the maximum with zero. Here: that block,
  entry by entry; what each grid point writes back is the matching block of ONE whole-array function of the three input
  arrays; the blocks cover the array; so the output array after the region is that function — for any contents of the
  buffers at region entry.
-/
import proofs.«160642_j70171175682690_1_alg».proof.Proof.Gen.KernelIdeal.Frame
import proofs.«160642_j70171175682690_1_alg».proof.Proof.Spec
import proofs.«160642_j70171175682690_1_alg».proof.Proof.LibKeepdims
import proofs.«160642_j70171175682690_1_alg».proof.Proof.LibRowVector
import Idealize.ShloMosaic.Lib.Pipeline.Value
import Idealize.ShloMosaic.PureOps.Ideal.Laws
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

/-- Both zero offsets, spelt as the constant function. -/
theorem zero_offsets1 : (![0, 0] : Fin 2 → Nat) = fun _ => 0 := funext fun a => by fin_cases a <;> rfl

/-- The block the body stores, at row r and lane l: the first block's entry scaled by row r's entry of the one-lane
    block, plus lane l's entry of the one-row block, and the maximum of that with zero. The same-shape casts are the
    identity, the one-lane column is copied to every lane, the one row to every row, and the zero word reads zero. -/
theorem block1_apply (x0 : FVec Ideal S5000x16 .f32) (x1 : FVec Ideal S5000x1 .f32) (x2 : FVec Ideal S1x16 .f32)
    (r : Fin 5000) (l : Fin 16) :
    k1_pay1 (F := Ideal) x0 x1 x2 (ix2 r l) = max (x0 (ix2 r l) * x1 (ix2 r 0) + x2 (ix2 0 l)) 0 := by
  unfold k1_pay1
  show max ((shapeCast S5000x16 x0 shapeCasts_S5000x16_S5000x16) (ix2 r l)
        * (broadcastTo S5000x16 (shapeCast S5000x1 x1 shapeCasts_S5000x1_S5000x1) broadcasts_S5000x1_S5000x16) (ix2 r l)
      + (broadcastTo S5000x16 (shapeCast S1x16 x2 shapeCasts_S1x16_S1x16) broadcasts_S1x16_S5000x16) (ix2 r l))
    (Ideal.ofBits .f32 0x00000000#32) = _
  rw [shapeCast_self, shapeCast_self, shapeCast_self, Ideal.ofBits_zero_f32]
  refine congrArg (max · 0) (congrArg₂ (· + ·) (congrArg (x0 (ix2 r l) * ·) ?_) ?_)
  · exact Idealize.ShloMosaic.Keepdims.broadcastTo_a1_ab_apply x1 broadcasts_S5000x1_S5000x16 r l
  · exact Cert.RowVector.broadcastTo_row (by decide) x2 broadcasts_S1x16_S5000x16 r l

/-- The printed index maps, decided over the grid: at point t the output's block and the two row-blocked inputs'
    blocks are block t along the rows and block 0 along the lanes; the one-row third input has one block. -/
theorem block_indices1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The whole-array function at an array index i, from three blocks read at block row r and lane l, when the
    blocks' entries are the arrays' entries at i's row and lane. -/
theorem finalizeRelu_of_reads1 (A : S500000x16.Idx → EReal) (d : S500000x1.Idx → EReal) (b : S1x16.Idx → EReal)
    (x0 : FVec Ideal S5000x16 .f32) (x1 : FVec Ideal S5000x1 .f32) (x2 : FVec Ideal S1x16 .f32)
    (i : S500000x16.Idx) (r : Fin 5000) (l : Fin 16)
    (h0 : x0 (ix2 r l) = A (ix2 (i 0) (i 1)))
    (h1 : x1 (ix2 r 0) = d (ix2 (i 0) 0))
    (h2 : x2 (ix2 0 l) = b (ix2 0 (i 1))) :
    max (x0 (ix2 r l) * x1 (ix2 r 0) + x2 (ix2 0 l)) 0
      = Cert.Gcn.finalizeRelu (n := 500000) (co := 16) A d b i := by
  show _ = max (A (ix2 (i 0) (i 1)) * d (ix2 (i 0) 0) + b (ix2 0 (i 1))) 0
  rw [h0, h1, h2]

variable (V : (c : Dev nD) → (b : Ref sig .tc) → Buf (Elt Ideal) ((c : Thread nD τ).loc b))

/-- What point t writes back is block t of the whole-array function of the three arrays as the region finds them. -/
theorem flushed1_eq (c : Dev nD) (t : Fin cfg1.N) :
    (dat1 (F := Ideal) V c).flushed 3 t = ((cfg1.win 3).blk t).view.read (Elt Ideal)
      (Cert.Gcn.finalizeRelu (n := 500000) (co := 16) (V c main_v28) (V c main_v29) (V c main_v30)) := by
  show (cfg1.win 3).cut (grid1.coords t) ((dat1 (F := Ideal) V c).after 3 t) = _
  rw [after1_3]
  unfold out1_3
  rw [View.canon_unit_zero zero_offsets1]
  simp only [View.ld_unit_zero (S := S5000x16) zero_offsets1, View.ld_unit_zero (S := S5000x1) zero_offsets1,
    View.ld_unit_zero (S := S1x16) zero_offsets1]
  obtain ⟨e00, e01, e10, e11, e20, e21, e30, e31⟩ := block_indices1 t
  funext j
  obtain ⟨p, q, rfl⟩ : ∃ (p : Fin 5000) (q : Fin 16), j = ix2 p q := ⟨j 0, j 1, eq_ix2 j⟩
  refine (block1_apply (iblk1 V c 0 t) (iblk1 V c 1 t) (iblk1 V c 2 t) p q).trans ?_
  show _ = Cert.Gcn.finalizeRelu (n := 500000) (co := 16) (V c main_v28) (V c main_v29) (V c main_v30)
    (((cfg1.win 3).blk t).view.emb (ix2 p q))
  refine finalizeRelu_of_reads1 (V c main_v28) (V c main_v29) (V c main_v30) (iblk1 V c 0 t) (iblk1 V c 1 t) (iblk1 V c 2 t)
    (((cfg1.win 3).blk t).view.emb (ix2 p q)) p q ?_ ?_ ?_
  · show V c main_v28 (((cfg1.win 0).blk t).view.emb (ix2 p q)) = _
    refine congrArg (V c main_v28) (funext fun a => Fin.ext ?_)
    match a with
    | ⟨0, _⟩ =>
      show win1_0.index t (0 : Fin 2) * 5000 + 1 * p.val = win1_3.index t (0 : Fin 2) * 5000 + 1 * p.val
      omega
    | ⟨1, _⟩ =>
      show win1_0.index t (1 : Fin 2) * 16 + 1 * q.val = win1_3.index t (1 : Fin 2) * 16 + 1 * q.val
      omega
  · show V c main_v29 (((cfg1.win 1).blk t).view.emb (ix2 p 0)) = _
    refine congrArg (V c main_v29) (funext fun a => Fin.ext ?_)
    match a with
    | ⟨0, _⟩ =>
      show win1_1.index t (0 : Fin 2) * 5000 + 1 * p.val = win1_3.index t (0 : Fin 2) * 5000 + 1 * p.val
      omega
    | ⟨1, _⟩ =>
      show win1_1.index t (1 : Fin 2) * 1 + 1 * 0 = 0
      omega
  · show V c main_v30 (((cfg1.win 2).blk t).view.emb (ix2 0 q)) = _
    refine congrArg (V c main_v30) (funext fun a => Fin.ext ?_)
    match a with
    | ⟨0, _⟩ =>
      show win1_2.index t (0 : Fin 2) * 1 + 1 * 0 = 0
      omega
    | ⟨1, _⟩ =>
      show win1_2.index t (1 : Fin 2) * 16 + 1 * q.val = win1_3.index t (1 : Fin 2) * 16 + 1 * q.val
      omega

/-- An index of the output array is in point t's block iff each coordinate is in the block's range on its axis. -/
theorem mem_block1 (t : Fin cfg1.N) (i : S500000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v31).slice (win1_3.rect t)).set ↔ _
  rw [View.set_slice_whole, Rect.mem_set_unit]
  exact Iff.rfl

/-- The hundred blocks of 5000 rows cover the 500000 rows: row i is in block i / 5000, and every point writes back. -/
theorem cover1 (i : S500000x16.Idx) :
    ∃ t : Fin cfg1.N, (cfg1.win 3).flush t = true ∧ i ∈ ((cfg1.win 3).blk t).view.set := by
  have hi0 : (i 0).val < 500000 := idx2_lt0 i
  have hi1 : (i 1).val < 16 := idx2_lt1 i
  obtain ⟨t, ht⟩ : ∃ t : Fin cfg1.N, t.val = (i 0).val / 5000 :=
    ⟨⟨(i 0).val / 5000, show (i 0).val / 5000 < 100 by omega⟩, rfl⟩
  obtain ⟨-, -, -, -, -, -, e30, e31⟩ := block_indices1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 16 ≤ (i 1).val ∧ (i 1).val < win1_3.index t (1 : Fin 2) * 16 + 16
    omega

/-- The output array after the region: the whole-array function of the three input arrays as the region finds them. -/
theorem final1 (c : Dev nD) :
    (dat1 (F := Ideal) V c).arrAt 3 cfg1.N
      = Cert.Gcn.finalizeRelu (n := 500000) (co := 16) (V c main_v28) (V c main_v29) (V c main_v30) :=
  (dat1 (F := Ideal) V c).arrAt_eq_of_cover 3 _ (fun t _ => flushed1_eq V c t) cover1

end Cert.KernelIdeal.Regions

end
-- ==== Proof.KReg2.lean ====
/-
  Region 2 of the graph convolution: the second layer's dense stage. The pipeline walks the 500000 rows in a hundred
  blocks of 5000; at each block the body multiplies the block's 5000×16 rows by the whole 16×1 matrix and scales row p
  of the one-lane product by the p-th entry of the one-lane column block. Here: that block, entry by entry; what each
  grid point writes back is the matching block of ONE whole-array function of the three input arrays; the blocks cover
  the array; so the output array after the region is that function — for any contents of the buffers at region entry.
-/
import proofs.«160642_j70171175682690_1_alg».proof.Proof.Gen.KernelIdeal.Frame
import proofs.«160642_j70171175682690_1_alg».proof.Proof.Spec
import proofs.«160642_j70171175682690_1_alg».proof.Proof.LibPlainDot
import Idealize.ShloMosaic.Lib.Pipeline.Value
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

/-- Both zero offsets, spelt as the constant function. -/
theorem zero_offsets2 : (![0, 0] : Fin 2 → Nat) = fun _ => 0 := funext fun a => by fin_cases a <;> rfl

/-- The block the body stores, at row r and its one lane l: row r of the first block against the one column of the
    second (the sum over the sixteen shared coordinates of the products), scaled by row r's entry of the third block.
    The same-shape casts and the narrowing format changes are the identity on the extended reals, and the product into
    the zero accumulator is the plain matrix product. -/
theorem block2_apply (x0 : FVec Ideal S5000x16 .f32) (x1 : FVec Ideal S16x1 .f32) (x2 : FVec Ideal S5000x1 .f32)
    (r : Fin 5000) (l : Fin 1) :
    k2_pay1 (F := Ideal) x0 x1 x2 (ix2 r l) = (∑ c : Fin 16, x0 (ix2 r c) * x1 (ix2 c l)) * x2 (ix2 r l) := by
  unfold k2_pay1
  show (FloatOps.matmul dot_S5000x16_S16x1_S5000x1_1_0_0_1_n_n none (shapeCast S5000x16 x0 shapeCasts_S5000x16_S5000x16) x1
        (constant (F := Ideal) S5000x1 .f32 0x00000000#32)) (ix2 r l)
      * (shapeCast S5000x1 x2 shapeCasts_S5000x1_S5000x1) (ix2 r l) = _
  rw [shapeCast_self, shapeCast_self]
  exact congrArg (· * x2 (ix2 r l))
    (Cert.PlainDot.matmul_zero_apply dot_S5000x16_S16x1_S5000x1_1_0_0_1_n_n rfl none x0 x1 r l)

/-- The printed index maps, decided over the grid: at point t the output's block and the two row-blocked inputs'
    blocks are block t along the rows and block 0 along the lanes; the small second input has one block. -/
theorem block_indices2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- The whole-array function at an array index i, from three blocks read at block row r and lane l, when the
    blocks' entries are the arrays' entries at i's row and lane. -/
theorem transform_of_reads2 (A : S500000x16.Idx → EReal) (W : S16x1.Idx → EReal) (d : S500000x1.Idx → EReal)
    (x0 : FVec Ideal S5000x16 .f32) (x1 : FVec Ideal S16x1 .f32) (x2 : FVec Ideal S5000x1 .f32)
    (i : S500000x1.Idx) (r : Fin 5000) (l : Fin 1)
    (h0 : ∀ k : Fin 16, x0 (ix2 r k) = A (ix2 (i 0) k))
    (h1 : ∀ k : Fin 16, x1 (ix2 k l) = W (ix2 k (i 1)))
    (h2 : x2 (ix2 r l) = d (ix2 (i 0) 0)) :
    (∑ k : Fin 16, x0 (ix2 r k) * x1 (ix2 k l)) * x2 (ix2 r l)
      = Cert.Gcn.transform (n := 500000) (ci := 16) (co := 1) A W d i := by
  show _ = (∑ k : Fin 16, A (ix2 (i 0) k) * W (ix2 k (i 1))) * d (ix2 (i 0) 0)
  rw [h2]
  refine congrArg (· * _) (Finset.sum_congr rfl fun k _ => ?_)
  rw [h0 k, h1 k]

variable (V : (c : Dev nD) → (b : Ref sig .tc) → Buf (Elt Ideal) ((c : Thread nD τ).loc b))

/-- What point t writes back is block t of the whole-array function of the three arrays as the region finds them. -/
theorem flushed2_eq (c : Dev nD) (t : Fin cfg2.N) :
    (dat2 (F := Ideal) V c).flushed 3 t = ((cfg2.win 3).blk t).view.read (Elt Ideal)
      (Cert.Gcn.transform (n := 500000) (ci := 16) (co := 1) (V c main_v31) (V c main_arg4) (V c main_v32)) := by
  show (cfg2.win 3).cut (grid2.coords t) ((dat2 (F := Ideal) V c).after 3 t) = _
  rw [after2_3]
  unfold out2_3
  rw [View.canon_unit_zero zero_offsets2]
  simp only [View.ld_unit_zero (S := S5000x16) zero_offsets2, View.ld_unit_zero (S := S16x1) zero_offsets2,
    View.ld_unit_zero (S := S5000x1) zero_offsets2]
  obtain ⟨e00, e01, e10, e11, e20, e21, e30, e31⟩ := block_indices2 t
  funext j
  obtain ⟨p, q, rfl⟩ : ∃ (p : Fin 5000) (q : Fin 1), j = ix2 p q := ⟨j 0, j 1, eq_ix2 j⟩
  refine (block2_apply (iblk2 V c 0 t) (iblk2 V c 1 t) (iblk2 V c 2 t) p q).trans ?_
  show _ = Cert.Gcn.transform (n := 500000) (ci := 16) (co := 1) (V c main_v31) (V c main_arg4) (V c main_v32)
    (((cfg2.win 3).blk t).view.emb (ix2 p q))
  refine transform_of_reads2 (V c main_v31) (V c main_arg4) (V c main_v32) (iblk2 V c 0 t) (iblk2 V c 1 t) (iblk2 V c 2 t)
    (((cfg2.win 3).blk t).view.emb (ix2 p q)) p q (fun k => ?_) (fun k => ?_) ?_
  · show V c main_v31 (((cfg2.win 0).blk t).view.emb (ix2 p k)) = _
    refine congrArg (V c main_v31) (funext fun a => Fin.ext ?_)
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 16 + 1 * k.val = k.val
      omega
  · show V c main_arg4 (((cfg2.win 1).blk t).view.emb (ix2 k q)) = _
    refine congrArg (V c main_arg4) (funext fun a => Fin.ext ?_)
    match a with
    | ⟨0, _⟩ =>
      show win2_1.index t (0 : Fin 2) * 16 + 1 * k.val = k.val
      omega
    | ⟨1, _⟩ =>
      show win2_1.index t (1 : Fin 2) * 1 + 1 * q.val = win2_3.index t (1 : Fin 2) * 1 + 1 * q.val
      omega
  · show V c main_v32 (((cfg2.win 2).blk t).view.emb (ix2 p q)) = _
    refine congrArg (V c main_v32) (funext fun a => Fin.ext ?_)
    match a with
    | ⟨0, _⟩ =>
      show win2_2.index t (0 : Fin 2) * 5000 + 1 * p.val = win2_3.index t (0 : Fin 2) * 5000 + 1 * p.val
      omega
    | ⟨1, _⟩ =>
      show win2_2.index t (1 : Fin 2) * 1 + 1 * q.val = 0
      omega

/-- An index of the output array is in point t's block iff each coordinate is in the block's range on its axis. -/
theorem mem_block2 (t : Fin cfg2.N) (i : S500000x1.Idx) :
    i ∈ ((cfg2.win 3).blk t).view.set ↔ ∀ a : Fin 2, win2_3.index t a * S5000x1.size a ≤ (i a).val
      ∧ (i a).val < win2_3.index t a * S5000x1.size a + S5000x1.size a := by
  show i ∈ ((View.whole main_v33).slice (win2_3.rect t)).set ↔ _
  rw [View.set_slice_whole, Rect.mem_set_unit]
  exact Iff.rfl

/-- The hundred blocks of 5000 rows cover the 500000 rows: row i is in block i / 5000, and every point writes back. -/
theorem cover2 (i : S500000x1.Idx) :
    ∃ t : Fin cfg2.N, (cfg2.win 3).flush t = true ∧ i ∈ ((cfg2.win 3).blk t).view.set := by
  have hi0 : (i 0).val < 500000 := idx2_lt0 i
  have hi1 : (i 1).val < 1 := idx2_lt1 i
  obtain ⟨t, ht⟩ : ∃ t : Fin cfg2.N, t.val = (i 0).val / 5000 :=
    ⟨⟨(i 0).val / 5000, show (i 0).val / 5000 < 100 by omega⟩, rfl⟩
  obtain ⟨-, -, -, -, -, -, e30, e31⟩ := block_indices2 t
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 1 ≤ (i 1).val ∧ (i 1).val < win2_3.index t (1 : Fin 2) * 1 + 1
    omega

/-- The output array after the region: the whole-array function of the three input arrays as the region finds them. -/
theorem final2 (c : Dev nD) :
    (dat2 (F := Ideal) V c).arrAt 3 cfg2.N
      = Cert.Gcn.transform (n := 500000) (ci := 16) (co := 1) (V c main_v31) (V c main_arg4) (V c main_v32) :=
  (dat2 (F := Ideal) V c).arrAt_eq_of_cover 3 _ (fun t _ => flushed2_eq V c t) cover2

end Cert.KernelIdeal.Regions

end
-- ==== Proof.KReg3.lean ====
/-
  Region 3 of the graph convolution: the second layer's closing stage. The pipeline walks the 500000 rows in a hundred
  blocks of 5000; at each block the body scales row p of the one-lane block by the p-th entry of the one-lane column
  block and adds the single offset to every row. Here: that block, entry by entry; what each grid point writes back is
  the matching block of ONE whole-array function of the three input arrays; the blocks cover the array; so the output
  array after the region is that function — for any contents of the buffers at region entry.
-/
import proofs.«160642_j70171175682690_1_alg».proof.Proof.Gen.KernelIdeal.Frame
import proofs.«160642_j70171175682690_1_alg».proof.Proof.Spec

import Idealize.ShloMosaic.Lib.Pipeline.Value
import Idealize.ShloMosaic.Lib.ValueIdx

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

/-- Both zero offsets, spelt as the constant function. -/
theorem zero_offsets3 : (![0, 0] : Fin 2 → Nat) = fun _ => 0 := funext fun a => by fin_cases a <;> rfl

/-- The block the body stores, at row r and its one lane l: the first block's entry times the second block's entry,
    plus the one entry of the third block. The same-shape casts are the identity, and the 1×1 array copied to every
    row reads its one entry (both of its axes are unit axes). -/
theorem block3_apply (x0 : FVec Ideal S5000x1 .f32) (x1 : FVec Ideal S5000x1 .f32) (x2 : FVec Ideal S1x1 .f32)
    (r : Fin 5000) (l : Fin 1) :
    k3_pay1 (F := Ideal) x0 x1 x2 (ix2 r l) = x0 (ix2 r l) * x1 (ix2 r l) + x2 (ix2 0 0) := by
  unfold k3_pay1
  show (shapeCast S5000x1 x0 shapeCasts_S5000x1_S5000x1) (ix2 r l) * (shapeCast S5000x1 x1 shapeCasts_S5000x1_S5000x1) (ix2 r l)
      + (broadcastTo S5000x1 (shapeCast S1x1 x2 shapeCasts_S1x1_S1x1) broadcasts_S1x1_S5000x1) (ix2 r l) = _
  rw [shapeCast_self, shapeCast_self, shapeCast_self]
  refine congrArg (x0 (ix2 r l) * x1 (ix2 r l) + ·) ?_
  refine broadcastTo_apply x2 broadcasts_S1x1_S5000x1 (ix2 r l) (ix2 0 0) fun a => ?_
  match a with
  | ⟨0, _⟩ =>
    show (0 : Nat) = if (1 : Nat) = 1 then 0 else _
    rw [if_pos rfl]
  | ⟨1, _⟩ =>
    show (0 : Nat) = if (1 : Nat) = 1 then 0 else _
    rw [if_pos rfl]

/-- The printed index maps, decided over the grid: at point t the output's block and the two row-blocked inputs'
    blocks are block t along the rows and block 0 along the one lane; the 1×1 third input has one block. -/
theorem block_indices3 : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- The whole-array function at an array index i, from three blocks read at block row r and lane l, when the
    blocks' entries are the arrays' entries at i's row and lane. -/
theorem finalize_of_reads3 (A : S500000x1.Idx → EReal) (d : S500000x1.Idx → EReal) (b : S1x1.Idx → EReal)
    (x0 : FVec Ideal S5000x1 .f32) (x1 : FVec Ideal S5000x1 .f32) (x2 : FVec Ideal S1x1 .f32)
    (i : S500000x1.Idx) (r : Fin 5000) (l : Fin 1)
    (h0 : x0 (ix2 r l) = A (ix2 (i 0) (i 1)))
    (h1 : x1 (ix2 r l) = d (ix2 (i 0) 0))
    (h2 : x2 (ix2 0 0) = b (ix2 0 (i 1))) :
    x0 (ix2 r l) * x1 (ix2 r l) + x2 (ix2 0 0)
      = Cert.Gcn.finalize (n := 500000) (co := 1) A d b i := by
  show _ = A (ix2 (i 0) (i 1)) * d (ix2 (i 0) 0) + b (ix2 0 (i 1))
  rw [h0, h1, h2]

variable (V : (c : Dev nD) → (b : Ref sig .tc) → Buf (Elt Ideal) ((c : Thread nD τ).loc b))

/-- What point t writes back is block t of the whole-array function of the three arrays as the region finds them. -/
theorem flushed3_eq (c : Dev nD) (t : Fin cfg3.N) :
    (dat3 (F := Ideal) V c).flushed 3 t = ((cfg3.win 3).blk t).view.read (Elt Ideal)
      (Cert.Gcn.finalize (n := 500000) (co := 1) (V c main_v43) (V c main_v44) (V c main_v45)) := by
  show (cfg3.win 3).cut (grid3.coords t) ((dat3 (F := Ideal) V c).after 3 t) = _
  rw [after3_3]
  unfold out3_3
  rw [View.canon_unit_zero zero_offsets3]
  simp only [View.ld_unit_zero (S := S5000x1) zero_offsets3, View.ld_unit_zero (S := S1x1) zero_offsets3]
  obtain ⟨e00, e01, e10, e11, e20, e21, e30, e31⟩ := block_indices3 t
  funext j
  obtain ⟨p, q, rfl⟩ : ∃ (p : Fin 5000) (q : Fin 1), j = ix2 p q := ⟨j 0, j 1, eq_ix2 j⟩
  refine (block3_apply (iblk3 V c 0 t) (iblk3 V c 1 t) (iblk3 V c 2 t) p q).trans ?_
  show _ = Cert.Gcn.finalize (n := 500000) (co := 1) (V c main_v43) (V c main_v44) (V c main_v45)
    (((cfg3.win 3).blk t).view.emb (ix2 p q))
  refine finalize_of_reads3 (V c main_v43) (V c main_v44) (V c main_v45) (iblk3 V c 0 t) (iblk3 V c 1 t) (iblk3 V c 2 t)
    (((cfg3.win 3).blk t).view.emb (ix2 p q)) p q ?_ ?_ ?_
  · show V c main_v43 (((cfg3.win 0).blk t).view.emb (ix2 p q)) = _
    refine congrArg (V c main_v43) (funext fun a => Fin.ext ?_)
    match a with
    | ⟨0, _⟩ =>
      show win3_0.index t (0 : Fin 2) * 5000 + 1 * p.val = win3_3.index t (0 : Fin 2) * 5000 + 1 * p.val
      omega
    | ⟨1, _⟩ =>
      show win3_0.index t (1 : Fin 2) * 1 + 1 * q.val = win3_3.index t (1 : Fin 2) * 1 + 1 * q.val
      omega
  · show V c main_v44 (((cfg3.win 1).blk t).view.emb (ix2 p q)) = _
    refine congrArg (V c main_v44) (funext fun a => Fin.ext ?_)
    match a with
    | ⟨0, _⟩ =>
      show win3_1.index t (0 : Fin 2) * 5000 + 1 * p.val = win3_3.index t (0 : Fin 2) * 5000 + 1 * p.val
      omega
    | ⟨1, _⟩ =>
      show win3_1.index t (1 : Fin 2) * 1 + 1 * q.val = 0
      omega
  · show V c main_v45 (((cfg3.win 2).blk t).view.emb (ix2 0 0)) = _
    refine congrArg (V c main_v45) (funext fun a => Fin.ext ?_)
    match a with
    | ⟨0, _⟩ =>
      show win3_2.index t (0 : Fin 2) * 1 + 1 * 0 = 0
      omega
    | ⟨1, _⟩ =>
      show win3_2.index t (1 : Fin 2) * 1 + 1 * 0 = win3_3.index t (1 : Fin 2) * 1 + 1 * q.val
      omega

/-- An index of the output array is in point t's block iff each coordinate is in the block's range on its axis. -/
theorem mem_block3 (t : Fin cfg3.N) (i : S500000x1.Idx) :
    i ∈ ((cfg3.win 3).blk t).view.set ↔ ∀ a : Fin 2, win3_3.index t a * S5000x1.size a ≤ (i a).val
      ∧ (i a).val < win3_3.index t a * S5000x1.size a + S5000x1.size a := by
  show i ∈ ((View.whole main_v46).slice (win3_3.rect t)).set ↔ _
  rw [View.set_slice_whole, Rect.mem_set_unit]
  exact Iff.rfl

/-- The hundred blocks of 5000 rows cover the 500000 rows: row i is in block i / 5000, and every point writes back. -/
theorem cover3 (i : S500000x1.Idx) :
    ∃ t : Fin cfg3.N, (cfg3.win 3).flush t = true ∧ i ∈ ((cfg3.win 3).blk t).view.set := by
  have hi0 : (i 0).val < 500000 := idx2_lt0 i
  have hi1 : (i 1).val < 1 := idx2_lt1 i
  obtain ⟨t, ht⟩ : ∃ t : Fin cfg3.N, t.val = (i 0).val / 5000 :=
    ⟨⟨(i 0).val / 5000, show (i 0).val / 5000 < 100 by omega⟩, rfl⟩
  obtain ⟨-, -, -, -, -, -, e30, e31⟩ := block_indices3 t
  refine ⟨t, flush3_3 t, ?_⟩
  rw [mem_block3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 1 ≤ (i 1).val ∧ (i 1).val < win3_3.index t (1 : Fin 2) * 1 + 1
    omega

/-- The output array after the region: the whole-array function of the three input arrays as the region finds them. -/
theorem final3 (c : Dev nD) :
    (dat3 (F := Ideal) V c).arrAt 3 cfg3.N
      = Cert.Gcn.finalize (n := 500000) (co := 1) (V c main_v43) (V c main_v44) (V c main_v45) :=
  (dat3 (F := Ideal) V c).arrAt_eq_of_cover 3 _ (fun t _ => flushed3_eq V c t) cover3

end Cert.KernelIdeal.Regions

end
-- ==== Proof.KChain.lean ====
/-
  The idealized kernel's result buffer after the run is `kOut` of the argument arrays: the fold of the host stretches and
  the four regions' write-backs from the launch memory, read backwards from the result. Each host stretch is read at the
  buffers it writes (its operations composed) and is the identity at the buffers it does not write; each region leaves
  its output array at the region's whole-array function of its three input arrays and every other buffer as it was.
-/
import proofs.«160642_j70171175682690_1_alg».proof.Proof.Gen.KernelIdeal.Frame
import proofs.«160642_j70171175682690_1_alg».proof.Proof.HostK
import proofs.«160642_j70171175682690_1_alg».proof.Proof.KReg0
import proofs.«160642_j70171175682690_1_alg».proof.Proof.KReg1
import proofs.«160642_j70171175682690_1_alg».proof.Proof.KReg2
import proofs.«160642_j70171175682690_1_alg».proof.Proof.KReg3
import Idealize.ShloMosaic.Lib.StableHlo.Run

set_option maxRecDepth 16384

noncomputable section

namespace Cert.KernelIdeal.Chain

open Cert.KernelIdeal Cert.KernelIdeal.Gen Cert.KernelIdeal.HostK Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch, from the launch memory: the edge endpoints, the degree test, 1/√(max(deg, 1)) -/
theorem W1_v3 : W1 m ρ c (Proc.devRef .tc main_v3) = (rowW (m ((c : Thread nD τ).loc main_arg1))) := by
  show StableHlo.after hostOps0 (W0 m ρ c) (Proc.devRef .tc main_v3) = _
  after_results
  first | done | rfl
theorem W1_v6 : W1 m ρ c (Proc.devRef .tc main_v6) = (colW (m ((c : Thread nD τ).loc main_arg1))) := by
  show StableHlo.after hostOps0 (W0 m ρ c) (Proc.devRef .tc main_v6) = _
  after_results
  first | done | rfl
theorem W1_v12 : W1 m ρ c (Proc.devRef .tc main_v12) = cmpf (F := Ideal) .ogt (degV (colW (m ((c : Thread nD τ).loc main_arg1)))) (broadcastInDim S500000 ![] bcast_S_S500000 (constant S_ .f32 0x00000000#32)) := by
  show StableHlo.after hostOps0 (W0 m ρ c) (Proc.devRef .tc main_v12) = _
  after_results
  first | done | rfl
theorem W1_v15 : W1 m ρ c (Proc.devRef .tc main_v15) = Host.rsqrt (maximumf (degV (colW (m ((c : Thread nD τ).loc main_arg1)))) (broadcastInDim S500000 ![] bcast_S_S500000 (constant S_ .f32 0x3F800000#32))) := by
  show StableHlo.after hostOps0 (W0 m ρ c) (Proc.devRef .tc main_v15) = _
  after_results
  first | done | rfl
theorem W1_cst3 : W1 m ρ c (Proc.devRef .tc main_cst_3) = constant (F := Ideal) S_ .f32 0x00000000#32 := by
  show StableHlo.after hostOps0 (W0 m ρ c) (Proc.devRef .tc main_cst_3) = _
  after_results
  first | done | rfl
theorem W1_arg0 : W1 m ρ c (Proc.devRef .tc main_arg0) = (m ((c : Thread nD τ).loc main_arg0)) := by
  show StableHlo.after hostOps0 (W0 m ρ c) (Proc.devRef .tc main_arg0) = _
  after_results
  first | done | rfl
theorem W1_arg2 : W1 m ρ c (Proc.devRef .tc main_arg2) = (m ((c : Thread nD τ).loc main_arg2)) := by
  show StableHlo.after hostOps0 (W0 m ρ c) (Proc.devRef .tc main_arg2) = _
  after_results
  first | done | rfl
theorem W1_arg3 : W1 m ρ c (Proc.devRef .tc main_arg3) = (m ((c : Thread nD τ).loc main_arg3)) := by
  show StableHlo.after hostOps0 (W0 m ρ c) (Proc.devRef .tc main_arg3) = _
  after_results
  first | done | rfl
theorem W1_arg4 : W1 m ρ c (Proc.devRef .tc main_arg4) = (m ((c : Thread nD τ).loc main_arg4)) := by
  show StableHlo.after hostOps0 (W0 m ρ c) (Proc.devRef .tc main_arg4) = _
  after_results
  first | done | rfl
theorem W1_arg5 : W1 m ρ c (Proc.devRef .tc main_arg5) = (m ((c : Thread nD τ).loc main_arg5)) := by
  show StableHlo.after hostOps0 (W0 m ρ c) (Proc.devRef .tc main_arg5) = _
  after_results
  first | done | rfl

/-! ## The select "where the degree is positive" (a called function's three operations), over any contents -/

theorem select_stretch (Wv : Valuation τ sig (Elt Ideal)) : StableHlo.after hostOps0_1 Wv (Proc.devRef .tc main_v16)
    = select (Wv (Proc.devRef .tc main_v12)) (Wv (Proc.devRef .tc main_v15)) (broadcastInDim S500000 ![] bcast_S_S500000 (id (Wv (Proc.devRef .tc main_cst_3)))) := by
  after_results
  rfl
theorem select_stretch_v3 (Wv : Valuation τ sig (Elt Ideal)) : StableHlo.after hostOps0_1 Wv (Proc.devRef .tc main_v3) = Wv (Proc.devRef .tc main_v3) := by
  after_results
theorem select_stretch_v6 (Wv : Valuation τ sig (Elt Ideal)) : StableHlo.after hostOps0_1 Wv (Proc.devRef .tc main_v6) = Wv (Proc.devRef .tc main_v6) := by
  after_results
theorem select_stretch_arg0 (Wv : Valuation τ sig (Elt Ideal)) : StableHlo.after hostOps0_1 Wv (Proc.devRef .tc main_arg0) = Wv (Proc.devRef .tc main_arg0) := by
  after_results
theorem select_stretch_arg2 (Wv : Valuation τ sig (Elt Ideal)) : StableHlo.after hostOps0_1 Wv (Proc.devRef .tc main_arg2) = Wv (Proc.devRef .tc main_arg2) := by
  after_results
theorem select_stretch_arg3 (Wv : Valuation τ sig (Elt Ideal)) : StableHlo.after hostOps0_1 Wv (Proc.devRef .tc main_arg3) = Wv (Proc.devRef .tc main_arg3) := by
  after_results
theorem select_stretch_arg4 (Wv : Valuation τ sig (Elt Ideal)) : StableHlo.after hostOps0_1 Wv (Proc.devRef .tc main_arg4) = Wv (Proc.devRef .tc main_arg4) := by
  after_results
theorem select_stretch_arg5 (Wv : Valuation τ sig (Elt Ideal)) : StableHlo.after hostOps0_1 Wv (Proc.devRef .tc main_arg5) = Wv (Proc.devRef .tc main_arg5) := by
  after_results

theorem W2_v16 : W2 m ρ c (Proc.devRef .tc main_v16) = (dinvV (degV (colW (m ((c : Thread nD τ).loc main_arg1))))) := by
  show StableHlo.after hostOps0_1 (W1 m ρ c) (Proc.devRef .tc main_v16) = _
  rw [select_stretch, W1_v12, W1_v15, W1_cst3]
  rfl
theorem W2_v3 : W2 m ρ c (Proc.devRef .tc main_v3) = (rowW (m ((c : Thread nD τ).loc main_arg1))) := by
  show StableHlo.after hostOps0_1 (W1 m ρ c) (Proc.devRef .tc main_v3) = _
  rw [select_stretch_v3, W1_v3]
theorem W2_v6 : W2 m ρ c (Proc.devRef .tc main_v6) = (colW (m ((c : Thread nD τ).loc main_arg1))) := by
  show StableHlo.after hostOps0_1 (W1 m ρ c) (Proc.devRef .tc main_v6) = _
  rw [select_stretch_v6, W1_v6]
theorem W2_arg0 : W2 m ρ c (Proc.devRef .tc main_arg0) = (m ((c : Thread nD τ).loc main_arg0)) := by
  show StableHlo.after hostOps0_1 (W1 m ρ c) (Proc.devRef .tc main_arg0) = _
  rw [select_stretch_arg0, W1_arg0]
theorem W2_arg2 : W2 m ρ c (Proc.devRef .tc main_arg2) = (m ((c : Thread nD τ).loc main_arg2)) := by
  show StableHlo.after hostOps0_1 (W1 m ρ c) (Proc.devRef .tc main_arg2) = _
  rw [select_stretch_arg2, W1_arg2]
theorem W2_arg3 : W2 m ρ c (Proc.devRef .tc main_arg3) = (m ((c : Thread nD τ).loc main_arg3)) := by
  show StableHlo.after hostOps0_1 (W1 m ρ c) (Proc.devRef .tc main_arg3) = _
  rw [select_stretch_arg3, W1_arg3]
theorem W2_arg4 : W2 m ρ c (Proc.devRef .tc main_arg4) = (m ((c : Thread nD τ).loc main_arg4)) := by
  show StableHlo.after hostOps0_1 (W1 m ρ c) (Proc.devRef .tc main_arg4) = _
  rw [select_stretch_arg4, W1_arg4]
theorem W2_arg5 : W2 m ρ c (Proc.devRef .tc main_arg5) = (m ((c : Thread nD τ).loc main_arg5)) := by
  show StableHlo.after hostOps0_1 (W1 m ρ c) (Proc.devRef .tc main_arg5) = _
  rw [select_stretch_arg5, W1_arg5]

/-! ## Buffers a stretch does not write keep their contents -/

theorem s02_keep_v3 (Wv : Valuation τ sig (Elt Ideal)) : StableHlo.after hostOps0_2 Wv (Proc.devRef .tc main_v3) = Wv (Proc.devRef .tc main_v3) := by
  after_results
theorem s02_keep_v6 (Wv : Valuation τ sig (Elt Ideal)) : StableHlo.after hostOps0_2 Wv (Proc.devRef .tc main_v6) = Wv (Proc.devRef .tc main_v6) := by
  after_results
theorem s02_keep_v16 (Wv : Valuation τ sig (Elt Ideal)) : StableHlo.after hostOps0_2 Wv (Proc.devRef .tc main_v16) = Wv (Proc.devRef .tc main_v16) := by
  after_results
theorem s02_keep_arg0 (Wv : Valuation τ sig (Elt Ideal)) : StableHlo.after hostOps0_2 Wv (Proc.devRef .tc main_arg0) = Wv (Proc.devRef .tc main_arg0) := by
  after_results
theorem s02_keep_arg2 (Wv : Valuation τ sig (Elt Ideal)) : StableHlo.after hostOps0_2 Wv (Proc.devRef .tc main_arg2) = Wv (Proc.devRef .tc main_arg2) := by
  after_results
theorem s02_keep_arg3 (Wv : Valuation τ sig (Elt Ideal)) : StableHlo.after hostOps0_2 Wv (Proc.devRef .tc main_arg3) = Wv (Proc.devRef .tc main_arg3) := by
  after_results
theorem s02_keep_arg4 (Wv : Valuation τ sig (Elt Ideal)) : StableHlo.after hostOps0_2 Wv (Proc.devRef .tc main_arg4) = Wv (Proc.devRef .tc main_arg4) := by
  after_results
theorem s02_keep_arg5 (Wv : Valuation τ sig (Elt Ideal)) : StableHlo.after hostOps0_2 Wv (Proc.devRef .tc main_arg5) = Wv (Proc.devRef .tc main_arg5) := by
  after_results
theorem s1_keep_v3 (Wv : Valuation τ sig (Elt Ideal)) : StableHlo.after hostOps1 Wv (Proc.devRef .tc main_v3) = Wv (Proc.devRef .tc main_v3) := by
  after_results
theorem s1_keep_v6 (Wv : Valuation τ sig (Elt Ideal)) : StableHlo.after hostOps1 Wv (Proc.devRef .tc main_v6) = Wv (Proc.devRef .tc main_v6) := by
  after_results
theorem s1_keep_v16 (Wv : Valuation τ sig (Elt Ideal)) : StableHlo.after hostOps1 Wv (Proc.devRef .tc main_v16) = Wv (Proc.devRef .tc main_v16) := by
  after_results
theorem s1_keep_arg4 (Wv : Valuation τ sig (Elt Ideal)) : StableHlo.after hostOps1 Wv (Proc.devRef .tc main_arg4) = Wv (Proc.devRef .tc main_arg4) := by
  after_results
theorem s1_keep_arg5 (Wv : Valuation τ sig (Elt Ideal)) : StableHlo.after hostOps1 Wv (Proc.devRef .tc main_arg5) = Wv (Proc.devRef .tc main_arg5) := by
  after_results
theorem s2_keep_v3 (Wv : Valuation τ sig (Elt Ideal)) : StableHlo.after hostOps2 Wv (Proc.devRef .tc main_v3) = Wv (Proc.devRef .tc main_v3) := by
  after_results
theorem s2_keep_v6 (Wv : Valuation τ sig (Elt Ideal)) : StableHlo.after hostOps2 Wv (Proc.devRef .tc main_v6) = Wv (Proc.devRef .tc main_v6) := by
  after_results
theorem s2_keep_v16 (Wv : Valuation τ sig (Elt Ideal)) : StableHlo.after hostOps2 Wv (Proc.devRef .tc main_v16) = Wv (Proc.devRef .tc main_v16) := by
  after_results
theorem s2_keep_arg4 (Wv : Valuation τ sig (Elt Ideal)) : StableHlo.after hostOps2 Wv (Proc.devRef .tc main_arg4) = Wv (Proc.devRef .tc main_arg4) := by
  after_results
theorem s2_keep_arg5 (Wv : Valuation τ sig (Elt Ideal)) : StableHlo.after hostOps2 Wv (Proc.devRef .tc main_arg5) = Wv (Proc.devRef .tc main_arg5) := by
  after_results
theorem s2_keep_v31 (Wv : Valuation τ sig (Elt Ideal)) : StableHlo.after hostOps2 Wv (Proc.devRef .tc main_v31) = Wv (Proc.devRef .tc main_v31) := by
  after_results

/-! ## Region 0: the scaled features -/
theorem W3_v3 : W3 m ρ c (Proc.devRef .tc main_v3) = (rowW (m ((c : Thread nD τ).loc main_arg1))) := by
  show StableHlo.after hostOps0_2 (W2 m ρ c) (Proc.devRef .tc main_v3) = _
  rw [s02_keep_v3, W2_v3]
theorem W3_v6 : W3 m ρ c (Proc.devRef .tc main_v6) = (colW (m ((c : Thread nD τ).loc main_arg1))) := by
  show StableHlo.after hostOps0_2 (W2 m ρ c) (Proc.devRef .tc main_v6) = _
  rw [s02_keep_v6, W2_v6]
theorem W3_v16 : W3 m ρ c (Proc.devRef .tc main_v16) = (dinvV (degV (colW (m ((c : Thread nD τ).loc main_arg1))))) := by
  show StableHlo.after hostOps0_2 (W2 m ρ c) (Proc.devRef .tc main_v16) = _
  rw [s02_keep_v16, W2_v16]
theorem W3_arg0 : W3 m ρ c (Proc.devRef .tc main_arg0) = (m ((c : Thread nD τ).loc main_arg0)) := by
  show StableHlo.after hostOps0_2 (W2 m ρ c) (Proc.devRef .tc main_arg0) = _
  rw [s02_keep_arg0, W2_arg0]
theorem W3_arg2 : W3 m ρ c (Proc.devRef .tc main_arg2) = (m ((c : Thread nD τ).loc main_arg2)) := by
  show StableHlo.after hostOps0_2 (W2 m ρ c) (Proc.devRef .tc main_arg2) = _
  rw [s02_keep_arg2, W2_arg2]
theorem W3_arg3 : W3 m ρ c (Proc.devRef .tc main_arg3) = (m ((c : Thread nD τ).loc main_arg3)) := by
  show StableHlo.after hostOps0_2 (W2 m ρ c) (Proc.devRef .tc main_arg3) = _
  rw [s02_keep_arg3, W2_arg3]
theorem W3_arg4 : W3 m ρ c (Proc.devRef .tc main_arg4) = (m ((c : Thread nD τ).loc main_arg4)) := by
  show StableHlo.after hostOps0_2 (W2 m ρ c) (Proc.devRef .tc main_arg4) = _
  rw [s02_keep_arg4, W2_arg4]
theorem W3_arg5 : W3 m ρ c (Proc.devRef .tc main_arg5) = (m ((c : Thread nD τ).loc main_arg5)) := by
  show StableHlo.after hostOps0_2 (W2 m ρ c) (Proc.devRef .tc main_arg5) = _
  rw [s02_keep_arg5, W2_arg5]
theorem reshape_stretch0 (Wv : Valuation τ sig (Elt Ideal)) : StableHlo.after hostOps0_2 Wv (Proc.devRef .tc main_v17) = dcol (Wv (Proc.devRef .tc main_v16)) := by
  after_results
  rfl
theorem V3_v17 : V3 m ρ c main_v17 = (dcol (dinvV (degV (colW (m ((c : Thread nD τ).loc main_arg1)))))) := by
  show StableHlo.after hostOps0_2 (W2 m ρ c) (Proc.devRef .tc main_v17) = _
  rw [reshape_stretch0, W2_v16]
theorem V3_arg0 : V3 m ρ c main_arg0 = (m ((c : Thread nD τ).loc main_arg0)) := W3_arg0 m ρ c
theorem V3_arg2 : V3 m ρ c main_arg2 = (m ((c : Thread nD τ).loc main_arg2)) := W3_arg2 m ρ c

/-- Region 0 leaves the features times the first weights, each row scaled by its normalisation. -/
theorem out0 : W4 m ρ c (Proc.devRef .tc main_v18)
    = Cert.Gcn.transform (n := 500000) (ci := 3) (co := 16) (m ((c : Thread nD τ).loc main_arg0)) (m ((c : Thread nD τ).loc main_arg2)) (dcol (dinvV (degV (colW (m ((c : Thread nD τ).loc main_arg1)))))) := by
  refine (W4_arr m ρ c 3).trans ((final0 (V3 m ρ) c).trans ?_)
  rw [V3_arg0, V3_arg2, V3_v17]
theorem W4_v3 : W4 m ρ c (Proc.devRef .tc main_v3) = (rowW (m ((c : Thread nD τ).loc main_arg1))) :=
  (W4_of_ne m ρ c main_v3 (by decide)).trans (W3_v3 m ρ c)
theorem W4_v6 : W4 m ρ c (Proc.devRef .tc main_v6) = (colW (m ((c : Thread nD τ).loc main_arg1))) :=
  (W4_of_ne m ρ c main_v6 (by decide)).trans (W3_v6 m ρ c)
theorem W4_v16 : W4 m ρ c (Proc.devRef .tc main_v16) = (dinvV (degV (colW (m ((c : Thread nD τ).loc main_arg1))))) :=
  (W4_of_ne m ρ c main_v16 (by decide)).trans (W3_v16 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## Layer 1's aggregation and region 1 -/

theorem agg_stretch1 (Wv : Valuation τ sig (Elt Ideal)) : StableHlo.after hostOps1 Wv (Proc.devRef .tc main_v28)
    = agg16 (Wv (Proc.devRef .tc main_v18)) (colIdx (Wv (Proc.devRef .tc main_v6))) (wrapIdx (Wv (Proc.devRef .tc main_v3))) := by
  after_results
  rfl
theorem col_stretch1 (Wv : Valuation τ sig (Elt Ideal)) : StableHlo.after hostOps1 Wv (Proc.devRef .tc main_v29) = dcol (Wv (Proc.devRef .tc main_v16)) := by
  after_results
  rfl
theorem bias_stretch1 (Wv : Valuation τ sig (Elt Ideal)) : StableHlo.after hostOps1 Wv (Proc.devRef .tc main_v30) = brow16 (Wv (Proc.devRef .tc main_arg3)) := by
  after_results
  rfl
theorem V5_v28 : V5 m ρ c main_v28 = (agg16 (Cert.Gcn.transform (n := 500000) (ci := 3) (co := 16) (m ((c : Thread nD τ).loc main_arg0)) (m ((c : Thread nD τ).loc main_arg2)) (dcol (dinvV (degV (colW (m ((c : Thread nD τ).loc main_arg1))))))) (colIdx (colW (m ((c : Thread nD τ).loc main_arg1)))) (wrapIdx (rowW (m ((c : Thread nD τ).loc main_arg1))))) := by
  show StableHlo.after hostOps1 (W4 m ρ c) (Proc.devRef .tc main_v28) = _
  rw [agg_stretch1, out0, W4_v6, W4_v3]
theorem V5_v29 : V5 m ρ c main_v29 = (dcol (dinvV (degV (colW (m ((c : Thread nD τ).loc main_arg1)))))) := by
  show StableHlo.after hostOps1 (W4 m ρ c) (Proc.devRef .tc main_v29) = _
  rw [col_stretch1, W4_v16]
theorem V5_v30 : V5 m ρ c main_v30 = brow16 (m ((c : Thread nD τ).loc main_arg3)) := by
  show StableHlo.after hostOps1 (W4 m ρ c) (Proc.devRef .tc main_v30) = _
  rw [bias_stretch1, W4_arg3]

/-- Region 1 leaves the first layer's activations. -/
theorem out1 : W6 m ρ c (Proc.devRef .tc main_v31) = (Cert.Gcn.finalizeRelu (n := 500000) (co := 16) (agg16 (Cert.Gcn.transform (n := 500000) (ci := 3) (co := 16) (m ((c : Thread nD τ).loc main_arg0)) (m ((c : Thread nD τ).loc main_arg2)) (dcol (dinvV (degV (colW (m ((c : Thread nD τ).loc main_arg1))))))) (colIdx (colW (m ((c : Thread nD τ).loc main_arg1)))) (wrapIdx (rowW (m ((c : Thread nD τ).loc main_arg1))))) (dcol (dinvV (degV (colW (m ((c : Thread nD τ).loc main_arg1)))))) (brow16 (m ((c : Thread nD τ).loc main_arg3)))) := by
  refine (W6_arr m ρ c 3).trans ((final1 (V5 m ρ) c).trans ?_)
  rw [V5_v28, V5_v29, V5_v30]
theorem W5_v3 : W5 m ρ c (Proc.devRef .tc main_v3) = (rowW (m ((c : Thread nD τ).loc main_arg1))) := by
  show StableHlo.after hostOps1 (W4 m ρ c) (Proc.devRef .tc main_v3) = _
  rw [s1_keep_v3, W4_v3]
theorem W6_v3 : W6 m ρ c (Proc.devRef .tc main_v3) = (rowW (m ((c : Thread nD τ).loc main_arg1))) :=
  (W6_of_ne m ρ c main_v3 (by decide)).trans (W5_v3 m ρ c)
theorem W5_v6 : W5 m ρ c (Proc.devRef .tc main_v6) = (colW (m ((c : Thread nD τ).loc main_arg1))) := by
  show StableHlo.after hostOps1 (W4 m ρ c) (Proc.devRef .tc main_v6) = _
  rw [s1_keep_v6, W4_v6]
theorem W6_v6 : W6 m ρ c (Proc.devRef .tc main_v6) = (colW (m ((c : Thread nD τ).loc main_arg1))) :=
  (W6_of_ne m ρ c main_v6 (by decide)).trans (W5_v6 m ρ c)
theorem W5_v16 : W5 m ρ c (Proc.devRef .tc main_v16) = (dinvV (degV (colW (m ((c : Thread nD τ).loc main_arg1))))) := by
  show StableHlo.after hostOps1 (W4 m ρ c) (Proc.devRef .tc main_v16) = _
  rw [s1_keep_v16, W4_v16]
theorem W6_v16 : W6 m ρ c (Proc.devRef .tc main_v16) = (dinvV (degV (colW (m ((c : Thread nD τ).loc main_arg1))))) :=
  (W6_of_ne m ρ c main_v16 (by decide)).trans (W5_v16 m ρ c)
theorem W5_arg4 : W5 m ρ c (Proc.devRef .tc main_arg4) = (m ((c : Thread nD τ).loc main_arg4)) := by
  show StableHlo.after hostOps1 (W4 m ρ c) (Proc.devRef .tc main_arg4) = _
  rw [s1_keep_arg4, W4_arg4]
theorem W6_arg4 : W6 m ρ c (Proc.devRef .tc main_arg4) = (m ((c : Thread nD τ).loc main_arg4)) :=
  (W6_of_ne m ρ c main_arg4 (by decide)).trans (W5_arg4 m ρ c)
theorem W5_arg5 : W5 m ρ c (Proc.devRef .tc main_arg5) = (m ((c : Thread nD τ).loc main_arg5)) := by
  show StableHlo.after hostOps1 (W4 m ρ c) (Proc.devRef .tc main_arg5) = _
  rw [s1_keep_arg5, W4_arg5]
theorem W6_arg5 : W6 m ρ c (Proc.devRef .tc main_arg5) = (m ((c : Thread nD τ).loc main_arg5)) :=
  (W6_of_ne m ρ c main_arg5 (by decide)).trans (W5_arg5 m ρ c)

/-! ## Region 2: the scaled second-layer features -/

theorem reshape_stretch2 (Wv : Valuation τ sig (Elt Ideal)) : StableHlo.after hostOps2 Wv (Proc.devRef .tc main_v32) = dcol (Wv (Proc.devRef .tc main_v16)) := by
  after_results
  rfl
theorem V7_v31 : V7 m ρ c main_v31 = (Cert.Gcn.finalizeRelu (n := 500000) (co := 16) (agg16 (Cert.Gcn.transform (n := 500000) (ci := 3) (co := 16) (m ((c : Thread nD τ).loc main_arg0)) (m ((c : Thread nD τ).loc main_arg2)) (dcol (dinvV (degV (colW (m ((c : Thread nD τ).loc main_arg1))))))) (colIdx (colW (m ((c : Thread nD τ).loc main_arg1)))) (wrapIdx (rowW (m ((c : Thread nD τ).loc main_arg1))))) (dcol (dinvV (degV (colW (m ((c : Thread nD τ).loc main_arg1)))))) (brow16 (m ((c : Thread nD τ).loc main_arg3)))) := by
  show StableHlo.after hostOps2 (W6 m ρ c) (Proc.devRef .tc main_v31) = _
  rw [s2_keep_v31, out1]
theorem V7_arg4 : V7 m ρ c main_arg4 = (m ((c : Thread nD τ).loc main_arg4)) := by
  show StableHlo.after hostOps2 (W6 m ρ c) (Proc.devRef .tc main_arg4) = _
  rw [s2_keep_arg4, W6_arg4]
theorem V7_v32 : V7 m ρ c main_v32 = (dcol (dinvV (degV (colW (m ((c : Thread nD τ).loc main_arg1)))))) := by
  show StableHlo.after hostOps2 (W6 m ρ c) (Proc.devRef .tc main_v32) = _
  rw [reshape_stretch2, W6_v16]

/-- Region 2 leaves the activations times the second weights, each row scaled by its normalisation. -/
theorem out2 : W8 m ρ c (Proc.devRef .tc main_v33) = (Cert.Gcn.transform (n := 500000) (ci := 16) (co := 1) (Cert.Gcn.finalizeRelu (n := 500000) (co := 16) (agg16 (Cert.Gcn.transform (n := 500000) (ci := 3) (co := 16) (m ((c : Thread nD τ).loc main_arg0)) (m ((c : Thread nD τ).loc main_arg2)) (dcol (dinvV (degV (colW (m ((c : Thread nD τ).loc main_arg1))))))) (colIdx (colW (m ((c : Thread nD τ).loc main_arg1)))) (wrapIdx (rowW (m ((c : Thread nD τ).loc main_arg1))))) (dcol (dinvV (degV (colW (m ((c : Thread nD τ).loc main_arg1)))))) (brow16 (m ((c : Thread nD τ).loc main_arg3)))) (m ((c : Thread nD τ).loc main_arg4)) (dcol (dinvV (degV (colW (m ((c : Thread nD τ).loc main_arg1))))))) := by
  refine (W8_arr m ρ c 3).trans ((final2 (V7 m ρ) c).trans ?_)
  rw [V7_v31, V7_arg4, V7_v32]
theorem W7_v3 : W7 m ρ c (Proc.devRef .tc main_v3) = (rowW (m ((c : Thread nD τ).loc main_arg1))) := by
  show StableHlo.after hostOps2 (W6 m ρ c) (Proc.devRef .tc main_v3) = _
  rw [s2_keep_v3, W6_v3]
theorem W8_v3 : W8 m ρ c (Proc.devRef .tc main_v3) = (rowW (m ((c : Thread nD τ).loc main_arg1))) :=
  (W8_of_ne m ρ c main_v3 (by decide)).trans (W7_v3 m ρ c)
theorem W7_v6 : W7 m ρ c (Proc.devRef .tc main_v6) = (colW (m ((c : Thread nD τ).loc main_arg1))) := by
  show StableHlo.after hostOps2 (W6 m ρ c) (Proc.devRef .tc main_v6) = _
  rw [s2_keep_v6, W6_v6]
theorem W8_v6 : W8 m ρ c (Proc.devRef .tc main_v6) = (colW (m ((c : Thread nD τ).loc main_arg1))) :=
  (W8_of_ne m ρ c main_v6 (by decide)).trans (W7_v6 m ρ c)
theorem W7_v16 : W7 m ρ c (Proc.devRef .tc main_v16) = (dinvV (degV (colW (m ((c : Thread nD τ).loc main_arg1))))) := by
  show StableHlo.after hostOps2 (W6 m ρ c) (Proc.devRef .tc main_v16) = _
  rw [s2_keep_v16, W6_v16]
theorem W8_v16 : W8 m ρ c (Proc.devRef .tc main_v16) = (dinvV (degV (colW (m ((c : Thread nD τ).loc main_arg1))))) :=
  (W8_of_ne m ρ c main_v16 (by decide)).trans (W7_v16 m ρ c)
theorem W7_arg5 : W7 m ρ c (Proc.devRef .tc main_arg5) = (m ((c : Thread nD τ).loc main_arg5)) := by
  show StableHlo.after hostOps2 (W6 m ρ c) (Proc.devRef .tc main_arg5) = _
  rw [s2_keep_arg5, W6_arg5]
theorem W8_arg5 : W8 m ρ c (Proc.devRef .tc main_arg5) = (m ((c : Thread nD τ).loc main_arg5)) :=
  (W8_of_ne m ρ c main_arg5 (by decide)).trans (W7_arg5 m ρ c)

/-! ## Layer 2's aggregation and region 3 -/

theorem agg_stretch3 (Wv : Valuation τ sig (Elt Ideal)) : StableHlo.after hostOps3 Wv (Proc.devRef .tc main_v43)
    = agg1 (Wv (Proc.devRef .tc main_v33)) (colIdx (Wv (Proc.devRef .tc main_v6))) (wrapIdx (Wv (Proc.devRef .tc main_v3))) := by
  after_results
  rfl
theorem col_stretch3 (Wv : Valuation τ sig (Elt Ideal)) : StableHlo.after hostOps3 Wv (Proc.devRef .tc main_v44) = dcol (Wv (Proc.devRef .tc main_v16)) := by
  after_results
  rfl
theorem bias_stretch3 (Wv : Valuation τ sig (Elt Ideal)) : StableHlo.after hostOps3 Wv (Proc.devRef .tc main_v45) = brow1 (Wv (Proc.devRef .tc main_arg5)) := by
  after_results
  rfl
theorem V9_v43 : V9 m ρ c main_v43 = (agg1 (Cert.Gcn.transform (n := 500000) (ci := 16) (co := 1) (Cert.Gcn.finalizeRelu (n := 500000) (co := 16) (agg16 (Cert.Gcn.transform (n := 500000) (ci := 3) (co := 16) (m ((c : Thread nD τ).loc main_arg0)) (m ((c : Thread nD τ).loc main_arg2)) (dcol (dinvV (degV (colW (m ((c : Thread nD τ).loc main_arg1))))))) (colIdx (colW (m ((c : Thread nD τ).loc main_arg1)))) (wrapIdx (rowW (m ((c : Thread nD τ).loc main_arg1))))) (dcol (dinvV (degV (colW (m ((c : Thread nD τ).loc main_arg1)))))) (brow16 (m ((c : Thread nD τ).loc main_arg3)))) (m ((c : Thread nD τ).loc main_arg4)) (dcol (dinvV (degV (colW (m ((c : Thread nD τ).loc main_arg1))))))) (colIdx (colW (m ((c : Thread nD τ).loc main_arg1)))) (wrapIdx (rowW (m ((c : Thread nD τ).loc main_arg1))))) := by
  show StableHlo.after hostOps3 (W8 m ρ c) (Proc.devRef .tc main_v43) = _
  rw [agg_stretch3, out2, W8_v6, W8_v3]
theorem V9_v44 : V9 m ρ c main_v44 = (dcol (dinvV (degV (colW (m ((c : Thread nD τ).loc main_arg1)))))) := by
  show StableHlo.after hostOps3 (W8 m ρ c) (Proc.devRef .tc main_v44) = _
  rw [col_stretch3, W8_v16]
theorem V9_v45 : V9 m ρ c main_v45 = brow1 (m ((c : Thread nD τ).loc main_arg5)) := by
  show StableHlo.after hostOps3 (W8 m ρ c) (Proc.devRef .tc main_v45) = _
  rw [bias_stretch3, W8_arg5]

/-- THE RESULT: what region 3 leaves in the result buffer is `kOut` of the argument arrays. -/
theorem result_eq : W10 m ρ c (Proc.devRef .tc main_v46)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 3).trans ((final3 (V9 m ρ) c).trans ?_)
  rw [V9_v43, V9_v44, V9_v45]
  rfl

end Cert.KernelIdeal.Chain

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibEdgeSums.lean ====
/-
  Finite sums of extended reals against one nonnegative finite factor, and the aggregation step of a normalised
  graph convolution.

  * `sum_mul_of_nonneg_of_ne_top`: (∑ i, f i) · x = ∑ i, f i · x for 0 ≤ x ≠ ⊤ and ANY extended reals f i (the
    extended reals do not distribute in general; they do against a nonnegative finite factor).
  * `aggregate_scale`: messages h(g n) · d(g n) summed over the edges n landing on a node k and then scaled by d(k)
    are the messages h(g n) · (d(g n) · d(g' n)) summed over the same edges, when g' n = k on every landing edge.
-/
import Mathlib.Data.EReal.Inv
import Mathlib.Algebra.BigOperators.Group.Finset.Basic

open scoped BigOperators

namespace Cert.EdgeSums

/-- A finite sum of extended reals times a nonnegative finite factor is the sum of the products. -/
theorem sum_mul_of_nonneg_of_ne_top {ι : Type*} (s : Finset ι) (f : ι → EReal) {x : EReal} (h0 : 0 ≤ x)
    (ht : x ≠ ⊤) : (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- Scaling the aggregate at node k by d k is scaling every landing message by d of its own target. -/
theorem aggregate_scale {ι N : Type*} [Fintype ι] (land : ι → Prop) [DecidablePred land]
    (h d : N → EReal) (g g' : ι → N) (k : N) (hk0 : 0 ≤ d k) (hkt : d k ≠ ⊤)
    (hg' : ∀ n, land n → g' n = k) :
    (∑ n, if land n then h (g n) * d (g n) else 0) * d k
      = ∑ n, if land n then h (g n) * (d (g n) * d (g' n)) else 0 := by
  rw [sum_mul_of_nonneg_of_ne_top _ _ hk0 hkt]
  refine Finset.sum_congr rfl fun n _ => ?_
  by_cases hl : land n
  · rw [if_pos hl, if_pos hl, hg' n hl, mul_assoc]
  · rw [if_neg hl, if_neg hl, zero_mul]

end Cert.EdgeSums
-- ==== Proof.LayerEq.lean ====
/-
  One layer of the normalised graph convolution, read at one entry, in its two arrangements.

  The edges e = 0 … m−1 carry a source start index (wrow), a target start index as the gather sees it (wcol) and as
  the scatter sees it (cidx). A gather clamps a start index into [0, n−1] (`pick`); an accumulating scatter into the
  zero array adds the update of every edge whose index word, read signed, IS the target row k, and drops the others.

  * Scaled on the nodes: rows of H·W scaled by d on the source node, gathered along the edges, summed on the target
    node, scaled by d on the target node, plus the bias.
  * Scaled on the edges: rows of H·W gathered along the edges, each scaled by the edge weight d(source)·d(target),
    summed on the target node, plus the bias.

  The two agree at every entry as soon as d is nonnegative and finite (then the sum of the landing messages times
  d(k) distributes) and the gather's target index of a landing edge is the landing row (a word that reads k ≥ 0
  is not wrapped and not clamped).
-/
import Idealize.ShloMosaic.PureOps.Contract
import Idealize.ShloMosaic.PureOps.Ideal.Laws
import Idealize.ShloMosaic.Lib.ValueIdx
import proofs.«160642_j70171175682690_1_alg».proof.Proof.Spec
import proofs.«160642_j70171175682690_1_alg».proof.Proof.LibGather
import proofs.«160642_j70171175682690_1_alg».proof.Proof.LibScatterRows
import proofs.«160642_j70171175682690_1_alg».proof.Proof.LibScatterIdeal
import proofs.«160642_j70171175682690_1_alg».proof.Proof.LibPlainDot
import proofs.«160642_j70171175682690_1_alg».proof.Proof.LibEdgeSums

noncomputable section

open scoped BigOperators

namespace Cert.Gcn

open Idealize.ShloMosaic Idealize.ShloMosaic.ValueIdx

variable {n m ci co : Nat}

/-- The row a gather reads for edge e: the start index word read signed, clamped into [0, n − 1]. -/
def pick (hn : 0 < n) (idx : IVec ⟨2, ![m, 1]⟩ 32) (e : Fin m) : Fin n :=
  ⟨min (idx (ix2 e 0)).toInt.toNat (n - 1), by omega⟩

/-- An index word that reads k ≥ 0 is kept by the wrap of negative words, and the clamp keeps k < n. -/
theorem wrap_pick (w c : BitVec 32) (k : Nat) (hk : k < n) (hw : w.toInt = (k : Int)) :
    min (Scalar.select (IntOp.cmpi .slt w 0#32) (IntOp.addi w c) w).toInt.toNat (n - 1) = k := by
  have hslt : w.slt 0#32 = false := by
    simp only [BitVec.slt, hw]
    simp
  have hsel : Scalar.select (IntOp.cmpi .slt w 0#32) (IntOp.addi w c) w = w := by
    simp only [IntOp.cmpi, hslt, Scalar.select]
    rfl
  rw [hsel, hw]
  simp
  omega

section Scatter

variable (sd : ScatterDims ⟨2, ![n, co]⟩ ⟨2, ![m, 1]⟩ ⟨2, ![m, co]⟩)
    (hs1 : sd.updateWindowDims = [1]) (hs2 : sd.insertedWindowDims = [0]) (hs3 : sd.scatterDimsToOperandDims = [0])
    (hs4 : sd.indexVectorDim = 1)

include hs1 hs2 hs3 hs4 in
/-- The accumulating scatter of edge rows into the zero array, at (k, l): the sum of the updates (e, l) over the
    edges e whose index word reads k. -/
theorem scatter_zero_apply (Z : FVec Ideal ⟨2, ![n, co]⟩ .f32) (hZ : ∀ j, Z j = 0) (cidx : IVec ⟨2, ![m, 1]⟩ 32)
    (upd : FVec Ideal ⟨2, ![m, co]⟩ .f32) (k : Fin n) (l : Fin co) :
    Host.scatterAdd sd Z cidx upd (ix2 k l)
      = ∑ e : Fin m, if (cidx (ix2 e 0)).toInt = (k.val : Int) then upd (ix2 e l) else 0 := by
  rw [Cert.LibScatter.scatterAdd_ideal, Cert.LibScatter.hostScatterAdd_rows_apply sd hs1 hs2 hs3 hs4, hZ, zero_add]

end Scatter

section Layer

variable (sdK sdR : ScatterDims ⟨2, ![n, co]⟩ ⟨2, ![m, 1]⟩ ⟨2, ![m, co]⟩)
    (hK1 : sdK.updateWindowDims = [1]) (hK2 : sdK.insertedWindowDims = [0]) (hK3 : sdK.scatterDimsToOperandDims = [0])
    (hK4 : sdK.indexVectorDim = 1)
    (hR1 : sdR.updateWindowDims = [1]) (hR2 : sdR.insertedWindowDims = [0]) (hR3 : sdR.scatterDimsToOperandDims = [0])
    (hR4 : sdR.indexVectorDim = 1)
    (gdK gdR : GatherDims ⟨2, ![n, co]⟩ ⟨2, ![m, 1]⟩ ⟨2, ![m, co]⟩)
    (gK1 : gdK.offsetDims = [1]) (gK2 : gdK.collapsedSliceDims = [0]) (gK3 : gdK.operandBatchingDims = [])
    (gK4 : gdK.startIndicesBatchingDims = []) (gK5 : gdK.startIndexMap = [0]) (gK6 : gdK.indexVectorDim = 1)
    (gK7 : gdK.sliceSizes = ![1, co])
    (gR1 : gdR.offsetDims = [1]) (gR2 : gdR.collapsedSliceDims = [0]) (gR3 : gdR.operandBatchingDims = [])
    (gR4 : gdR.startIndicesBatchingDims = []) (gR5 : gdR.startIndexMap = [0]) (gR6 : gdR.indexVectorDim = 1)
    (gR7 : gdR.sliceSizes = ![1, co])
    (gv : GatherDims ⟨1, ![n]⟩ ⟨2, ![m, 1]⟩ ⟨1, ![m]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (D : DotDims ⟨2, ![n, ci]⟩ ⟨2, ![ci, co]⟩ ⟨2, ![n, co]⟩) (hD : D = DotDims.plain n ci co)

include hK1 hK2 hK3 hK4 hR1 hR2 hR3 hR4 gK1 gK2 gK3 gK4 gK5 gK6 gK7 gR1 gR2 gR3 gR4 gR5 gR6 gR7 v1 v2 v3 v4 v5 v6 v7 hD in
/-- THE LAYER AT AN ENTRY (k, l): scaled on the nodes = scaled on the edges. -/
theorem layer_eq_at (hn : 0 < n)
    (H : FVec Ideal ⟨2, ![n, ci]⟩ .f32) (W : FVec Ideal ⟨2, ![ci, co]⟩ .f32)
    (dinv : FVec Ideal ⟨1, ![n]⟩ .f32) (dcol : FVec Ideal ⟨2, ![n, 1]⟩ .f32)
    (hdcol : ∀ p : Fin n, dcol (ix2 p 0) = dinv (ix1 p))
    (hd0 : ∀ p : Fin n, 0 ≤ dinv (ix1 p)) (hdt : ∀ p : Fin n, dinv (ix1 p) ≠ ⊤)
    (ZK ZR : FVec Ideal ⟨2, ![n, co]⟩ .f32) (hZK : ∀ j, ZK j = 0) (hZR : ∀ j, ZR j = 0)
    (cidx wrow wcol : IVec ⟨2, ![m, 1]⟩ 32)
    (hcol : ∀ (e : Fin m) (k : Fin n), (cidx (ix2 e 0)).toInt = (k.val : Int) → pick hn wcol e = k)
    (brow : FVec Ideal ⟨2, ![1, co]⟩ .f32) (bfull : FVec Ideal ⟨2, ![n, co]⟩ .f32)
    (hb : ∀ (p : Fin n) (l : Fin co), bfull (ix2 p l) = brow (ix2 0 l))
    (nrm : FVec Ideal ⟨2, ![m, co]⟩ .f32)
    (hnrm : ∀ (e : Fin m) (l : Fin co),
      nrm (ix2 e l) = Host.gather gv dinv wrow (ix1 e) * Host.gather gv dinv wcol (ix1 e))
    (k : Fin n) (l : Fin co) :
    finalizeAt (Host.scatterAdd sdK ZK cidx (Host.gather gdK (transform H W dcol) wrow)) dcol brow k l
      = Host.scatterAdd sdR ZR cidx (mulf (Host.gather gdR (Host.dotGeneral D none H W) wrow) nrm) (ix2 k l)
          + bfull (ix2 k l) := by
  unfold finalizeAt
  rw [scatter_zero_apply sdK hK1 hK2 hK3 hK4 ZK hZK, scatter_zero_apply sdR hR1 hR2 hR3 hR4 ZR hZR, hb]
  refine congrArg (· + brow (ix2 0 l)) ?_
  have key := Cert.EdgeSums.aggregate_scale (land := fun e : Fin m => (cidx (ix2 e 0)).toInt = (k.val : Int))
    (h := fun p : Fin n => ∑ c : Fin ci, H (ix2 p c) * W (ix2 c l)) (d := fun p : Fin n => dcol (ix2 p 0))
    (g := pick hn wrow) (g' := pick hn wcol) k (by rw [hdcol]; exact hd0 k) (by rw [hdcol]; exact hdt k)
    (fun e he => hcol e k he)
  refine Eq.trans ?_ (key.trans ?_)
  · refine congrArg (· * dcol (ix2 k 0)) (Finset.sum_congr rfl fun e _ => ?_)
    rw [Cert.LibGather.gather_rows_apply gdK gK1 gK2 gK3 gK4 gK5 gK6 gK7 hn]
    rfl
  · refine Finset.sum_congr rfl fun e _ => ?_
    by_cases hl : (cidx (ix2 e 0)).toInt = (k.val : Int)
    · rw [if_pos hl, if_pos hl, mulf_apply, Cert.LibGather.gather_rows_apply gdR gR1 gR2 gR3 gR4 gR5 gR6 gR7 hn,
        hnrm, Cert.LibGather.gather_vec_apply gv v1 v2 v3 v4 v5 v6 v7 hn,
        Cert.LibGather.gather_vec_apply gv v1 v2 v3 v4 v5 v6 v7 hn, hdcol, hdcol]
      refine congrArg₂ (· * ·) ?_ rfl
      exact (Cert.PlainDot.dotGeneral_apply D hD none .single H W (pick hn wrow e) l).symm
    · rw [if_neg hl, if_neg hl]

end Layer

end Cert.Gcn

end
-- ==== Proof.DinvFacts.lean ====
/-
  The degree normalisation is a nonnegative finite number at every node: 1/√y of an extended real y ≥ 1 is a
  nonnegative real (and 0 at y = +∞), and the normalisation is either that, at y = max(degree, 1), or zero.
-/
import Idealize.ShloMosaic.PureOps.Ideal.Laws
import Idealize.ShloMosaic.Lib.ValueIdx

noncomputable section

namespace Cert.Gcn

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- 1/√y for y ≥ 1 is nonnegative and finite. -/
theorem rsqrt_of_one_le {y : EReal} (hy : 1 ≤ y) : 0 ≤ Ideal.rsqrt y ∧ Ideal.rsqrt y ≠ ⊤ := by
  induction y using EReal.rec with
  | bot => exact absurd (le_bot_iff.mp hy) (by decide)
  | top => exact ⟨le_of_eq Ideal.rsqrt_top.symm, by rw [Ideal.rsqrt_top]; exact EReal.zero_ne_top⟩
  | coe r =>
    have hr : (1 : ℝ) ≤ r := by exact_mod_cast hy
    have e : Ideal.rsqrt (r : EReal) = (((Real.sqrt r)⁻¹ : ℝ) : EReal) := by
      rw [Ideal.rsqrt_coe, if_neg (by linarith), if_neg (by linarith)]
    rw [e]
    exact ⟨by exact_mod_cast inv_nonneg.mpr (Real.sqrt_nonneg r), EReal.coe_ne_top _⟩

variable {s : Shape}

/-- "1/√(max(deg, 1)) where deg > 0, else 0", entry by entry, is nonnegative and finite, whatever deg is. -/
theorem normalisation_entry (deg Z O Z' : FVec Ideal s .f32) (hO : ∀ i, O i = 1) (hZ' : ∀ i, Z' i = 0) (i : s.Idx) :
    0 ≤ select (cmpf (F := Ideal) .ogt deg Z) (Host.rsqrt (maximumf deg O)) Z' i
      ∧ select (cmpf (F := Ideal) .ogt deg Z) (Host.rsqrt (maximumf deg O)) Z' i ≠ ⊤ := by
  rw [select_apply]
  unfold Scalar.select
  split
  · show 0 ≤ Ideal.rsqrt (max (deg i) (O i)) ∧ Ideal.rsqrt (max (deg i) (O i)) ≠ ⊤
    rw [hO]
    exact rsqrt_of_one_le (le_max_right _ _)
  · rw [hZ']
    exact ⟨le_refl _, EReal.zero_ne_top⟩

end Cert.Gcn

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Bridge.lean ====
/-
  The kernel's result and the reference's result are one function of the argument arrays.

  Both programs build the same edge endpoints, degree and normalisation d from the edge array. Per layer the kernel
  scales H·W by d on the nodes, aggregates along the edges and scales by d again on the targets; the reference
  aggregates H·W along the edges with the edge weights d(source)·d(target). At every entry the two agree because d
  is a nonnegative finite number at every node, so that scaling the aggregate distributes over the landing messages,
  and because an edge lands on node k only when its target word reads k ≥ 0, which the gather's wrap of negative
  words and clamp leave alone. The first layer's activations are then the same array, and the second layer is the
  same law on one lane.
-/
import proofs.«160642_j70171175682690_1_alg».proof.Proof.HostK
import proofs.«160642_j70171175682690_1_alg».proof.Proof.HostR
import proofs.«160642_j70171175682690_1_alg».proof.Proof.LayerEq
import proofs.«160642_j70171175682690_1_alg».proof.Proof.DinvFacts
import proofs.«160642_j70171175682690_1_alg».proof.Proof.LibColumnInDim
import proofs.«160642_j70171175682690_1_alg».proof.Proof.LibRowInDim
import proofs.«160642_j70171175682690_1_alg».proof.Proof.LibRowOfVector
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.Gcn

/-! ## The two programs spell the shared host terms alike -/

theorem rowW_eq (E : IVec ReferenceIdeal.S2x4000000 32) : KernelIdeal.HostK.rowW E = ReferenceIdeal.HostR.rowW E := rfl
theorem colW_eq (E : IVec ReferenceIdeal.S2x4000000 32) : KernelIdeal.HostK.colW E = ReferenceIdeal.HostR.colW E := rfl
theorem colIdx_eq (w : IVec ReferenceIdeal.S4500000 32) : KernelIdeal.HostK.colIdx w = ReferenceIdeal.HostR.colIdx w := rfl
theorem wrapIdx_eq (w : IVec ReferenceIdeal.S4500000 32) : KernelIdeal.HostK.wrapIdx w = ReferenceIdeal.HostR.wrapIdx w := rfl
theorem degV_eq (col : IVec ReferenceIdeal.S4500000 32) : KernelIdeal.HostK.degV col = ReferenceIdeal.HostR.degV col := rfl
theorem dinvV_eq (deg : FVec Ideal ReferenceIdeal.S500000 .f32) : KernelIdeal.HostK.dinvV deg = ReferenceIdeal.HostR.dinvV deg := rfl

/-! ## The small facts the layer law asks for -/

theorem zero16K (j : KernelIdeal.S500000x16.Idx) : KernelIdeal.HostK.zero16 j = 0 := Ideal.ofBits_zero_f32
theorem zero16R (j : ReferenceIdeal.S500000x16.Idx) : ReferenceIdeal.HostR.zero16 j = 0 := Ideal.ofBits_zero_f32
theorem zero1K (j : KernelIdeal.S500000x1.Idx) : KernelIdeal.HostK.zero1 j = 0 := Ideal.ofBits_zero_f32
theorem zero1R (j : ReferenceIdeal.S500000x1.Idx) : ReferenceIdeal.HostR.zero1 j = 0 := Ideal.ofBits_zero_f32

/-- The normalisation column holds the normalisation: row p of the column is entry p of the vector. -/
theorem dcol_apply (dinv : FVec Ideal ReferenceIdeal.S500000 .f32) (p : Fin 500000) :
    KernelIdeal.HostK.dcol dinv (ix2 p 0) = dinv (ix1 p) :=
  Cert.ColumnInDim.shapeCast_column dinv _ p 0

/-- The normalisation is nonnegative at every node … -/
theorem dinv_nonneg (deg : FVec Ideal ReferenceIdeal.S500000 .f32) (p : Fin 500000) : 0 ≤ ReferenceIdeal.HostR.dinvV deg (ix1 p) :=
  (normalisation_entry deg _ _ _ (fun _ => ofBits_one_f32) (fun _ => Ideal.ofBits_zero_f32) (ix1 p)).1
/-- … and finite. -/
theorem dinv_ne_top (deg : FVec Ideal ReferenceIdeal.S500000 .f32) (p : Fin 500000) : ReferenceIdeal.HostR.dinvV deg (ix1 p) ≠ ⊤ :=
  (normalisation_entry deg _ _ _ (fun _ => ofBits_one_f32) (fun _ => Ideal.ofBits_zero_f32) (ix1 p)).2

/-- An edge that lands on node k has target word k, which the gather's start index (wrapped, clamped) keeps. -/
theorem landing_target (col : IVec ReferenceIdeal.S4500000 32) (e : Fin 4500000) (k : Fin 500000)
    (h : (ReferenceIdeal.HostR.colIdx col (ix2 e 0)).toInt = (k.val : Int)) :
    pick (n := 500000) (by norm_num) (ReferenceIdeal.HostR.wrapIdx col) e = k := by
  have e1 : ReferenceIdeal.HostR.colIdx col (ix2 e 0) = col (ix1 e) := Cert.ColumnInDim.broadcastInDim_column col _ e 0
  have e2 : ReferenceIdeal.HostR.wrapIdx col (ix2 e 0)
      = Scalar.select (IntOp.cmpi .slt (col (ix1 e)) 0#32) (IntOp.addi (col (ix1 e)) 500000#32) (col (ix1 e)) :=
    (Cert.ColumnInDim.broadcastInDim_column _ _ e 0).trans rfl
  rw [e1] at h
  refine Fin.ext ?_
  show min (ReferenceIdeal.HostR.wrapIdx col (ix2 e 0)).toInt.toNat (500000 - 1) = k.val
  rw [e2]
  exact wrap_pick (n := 500000) _ _ k.val k.isLt h

/-- The 16 biases as a row of the kernel's one-row array and of the reference's full array. -/
theorem bias16 (b : FVec Ideal ReferenceIdeal.S16 .f32) (p : Fin 500000) (l : Fin 16) :
    broadcastInDim ReferenceIdeal.S500000x16 ![0, 1] ReferenceIdeal.Gen.bcast_S1x16_S500000x16_0_1 (broadcastInDim ReferenceIdeal.S1x16 ![1] ReferenceIdeal.Gen.bcast_S16_S1x16_1 b) (ix2 p l)
      = KernelIdeal.HostK.brow16 b (ix2 0 l) := by
  rw [Cert.RowInDim.broadcastInDim_rows (by norm_num), Cert.RowOfVector.broadcastInDim_row (by norm_num)]
  exact (Cert.RowOfVector.shapeCast_row b _ 0 l).symm

/-- The one bias of the second layer likewise. -/
theorem bias1 (b : FVec Ideal ReferenceIdeal.S1 .f32) (p : Fin 500000) (l : Fin 1) :
    broadcastInDim ReferenceIdeal.S500000x1 ![0, 1] ReferenceIdeal.Gen.bcast_S1x1_S500000x1_0_1 (broadcastInDim ReferenceIdeal.S1x1 ![1] ReferenceIdeal.Gen.bcast_S1_S1x1_1 b) (ix2 p l)
      = KernelIdeal.HostK.brow1 b (ix2 0 l) := by
  obtain rfl : l = 0 := Subsingleton.elim _ _
  have h1 := broadcastInDim_apply (![0, 1] : Fin 2 → Fin 2) ReferenceIdeal.Gen.bcast_S1x1_S500000x1_0_1
    (broadcastInDim ReferenceIdeal.S1x1 ![1] ReferenceIdeal.Gen.bcast_S1_S1x1_1 b) (ix2 p (0 : Fin 1)) (ix2 (0 : Fin 1) (0 : Fin 1)) (fun ax => match ax with
      | ⟨0, _⟩ => by
        show (0 : Nat) = if (1 : Nat) = 1 then 0 else _
        rw [if_pos rfl]
      | ⟨1, _⟩ => by
        show (0 : Nat) = if (1 : Nat) = 1 then 0 else _
        rw [if_pos rfl])
  have h2 := broadcastInDim_apply (![1] : Fin 1 → Fin 2) ReferenceIdeal.Gen.bcast_S1_S1x1_1 b (ix2 (0 : Fin 1) (0 : Fin 1)) (ix1 (0 : Fin 1)) (fun ax => match ax with
      | ⟨0, _⟩ => by
        show (0 : Nat) = if (1 : Nat) = 1 then 0 else _
        rw [if_pos rfl])
  exact (h1.trans h2).trans (Cert.RowOfVector.shapeCast_row b _ 0 0).symm

/-- The edge weights broadcast over the 16 lanes, at edge e and lane l: d at the source times d at the target. -/
theorem weights16 (dinv : FVec Ideal ReferenceIdeal.S500000 .f32) (wrow wcol : IVec ReferenceIdeal.S4500000x1 32) (e : Fin 4500000) (l : Fin 16) :
    broadcastInDim ReferenceIdeal.S4500000x16 ![0, 1] ReferenceIdeal.Gen.bcast_S4500000x1_S4500000x16_0_1 (broadcastInDim ReferenceIdeal.S4500000x1 ![0] ReferenceIdeal.Gen.bcast_S4500000_S4500000x1_0 (ReferenceIdeal.HostR.nrmV dinv wrow wcol)) (ix2 e l)
      = Host.gather ReferenceIdeal.gather_S500000_S4500000x1_S4500000_n_0_n_n_0_1_1 dinv wrow (ix1 e)
          * Host.gather ReferenceIdeal.gather_S500000_S4500000x1_S4500000_n_0_n_n_0_1_1 dinv wcol (ix1 e) := by
  rw [Cert.ColumnInDim.broadcastInDim_lanes, Cert.ColumnInDim.broadcastInDim_column]
  rfl

/-- The edge weights as the one-lane column of the second layer. -/
theorem weights1 (dinv : FVec Ideal ReferenceIdeal.S500000 .f32) (wrow wcol : IVec ReferenceIdeal.S4500000x1 32) (e : Fin 4500000) (l : Fin 1) :
    broadcastInDim ReferenceIdeal.S4500000x1 ![0] ReferenceIdeal.Gen.bcast_S4500000_S4500000x1_0 (ReferenceIdeal.HostR.nrmV dinv wrow wcol) (ix2 e l)
      = Host.gather ReferenceIdeal.gather_S500000_S4500000x1_S4500000_n_0_n_n_0_1_1 dinv wrow (ix1 e)
          * Host.gather ReferenceIdeal.gather_S500000_S4500000x1_S4500000_n_0_n_n_0_1_1 dinv wcol (ix1 e) := by
  rw [Cert.ColumnInDim.broadcastInDim_column]
  rfl

/-! ## The two layers -/

/-- Layer 1 with its activation: the kernel's arrangement is the reference's. -/
theorem layer16_eq (X : FVec Ideal ReferenceIdeal.S500000x3 .f32) (W : FVec Ideal ReferenceIdeal.S3x16 .f32) (b : FVec Ideal ReferenceIdeal.S16 .f32)
    (deg : FVec Ideal ReferenceIdeal.S500000 .f32) (row col : IVec ReferenceIdeal.S4500000 32) :
    finalizeRelu (n := 500000) (co := 16)
        (KernelIdeal.HostK.agg16 (transform (n := 500000) (ci := 3) (co := 16) X W (KernelIdeal.HostK.dcol (ReferenceIdeal.HostR.dinvV deg))) (ReferenceIdeal.HostR.colIdx col) (ReferenceIdeal.HostR.wrapIdx row))
        (KernelIdeal.HostK.dcol (ReferenceIdeal.HostR.dinvV deg)) (KernelIdeal.HostK.brow16 b)
      = maximumf (ReferenceIdeal.HostR.layer16 X W b (ReferenceIdeal.HostR.nrmV (ReferenceIdeal.HostR.dinvV deg) (ReferenceIdeal.HostR.wrapIdx row) (ReferenceIdeal.HostR.wrapIdx col)) (ReferenceIdeal.HostR.colIdx col) (ReferenceIdeal.HostR.wrapIdx row)) ReferenceIdeal.HostR.zero16 := by
  funext j
  obtain ⟨k, l, rfl⟩ : ∃ (k : Fin 500000) (l : Fin 16), j = ix2 k l := ⟨j 0, j 1, eq_ix2 j⟩
  rw [maximumf_apply, zero16R]
  refine congrArg (max · 0) ?_
  unfold ReferenceIdeal.HostR.layer16
  rw [addf_apply]
  exact layer_eq_at (n := 500000) (m := 4500000) (ci := 3) (co := 16)
    KernelIdeal.scatter_S500000x16_S4500000x1_S4500000x16_1_0_0_1 ReferenceIdeal.scatter_S500000x16_S4500000x1_S4500000x16_1_0_0_1
    rfl rfl rfl rfl rfl rfl rfl rfl
    KernelIdeal.gather_S500000x16_S4500000x1_S4500000x16_1_0_n_n_0_1_116 ReferenceIdeal.gather_S500000x16_S4500000x1_S4500000x16_1_0_n_n_0_1_116
    rfl rfl rfl rfl rfl rfl rfl rfl rfl rfl rfl rfl rfl rfl
    ReferenceIdeal.gather_S500000_S4500000x1_S4500000_n_0_n_n_0_1_1 rfl rfl rfl rfl rfl rfl rfl
    ReferenceIdeal.dot_S500000x3_S3x16_S500000x16_1_0_0_1_n_n rfl
    (by norm_num) X W (ReferenceIdeal.HostR.dinvV deg) (KernelIdeal.HostK.dcol (ReferenceIdeal.HostR.dinvV deg)) (dcol_apply _) (dinv_nonneg deg) (dinv_ne_top deg)
    KernelIdeal.HostK.zero16 ReferenceIdeal.HostR.zero16 zero16K zero16R
    (ReferenceIdeal.HostR.colIdx col) (ReferenceIdeal.HostR.wrapIdx row) (ReferenceIdeal.HostR.wrapIdx col) (landing_target col)
    (KernelIdeal.HostK.brow16 b) _ (bias16 b) _ (weights16 _ _ _) k l

/-- Layer 2: the same law on one lane, for any activations H. -/
theorem layer1_eq (H : FVec Ideal ReferenceIdeal.S500000x16 .f32) (W : FVec Ideal ReferenceIdeal.S16x1 .f32) (b : FVec Ideal ReferenceIdeal.S1 .f32)
    (deg : FVec Ideal ReferenceIdeal.S500000 .f32) (row col : IVec ReferenceIdeal.S4500000 32) :
    finalize (n := 500000) (co := 1)
        (KernelIdeal.HostK.agg1 (transform (n := 500000) (ci := 16) (co := 1) H W (KernelIdeal.HostK.dcol (ReferenceIdeal.HostR.dinvV deg))) (ReferenceIdeal.HostR.colIdx col) (ReferenceIdeal.HostR.wrapIdx row))
        (KernelIdeal.HostK.dcol (ReferenceIdeal.HostR.dinvV deg)) (KernelIdeal.HostK.brow1 b)
      = ReferenceIdeal.HostR.layer1 H W b (ReferenceIdeal.HostR.nrmV (ReferenceIdeal.HostR.dinvV deg) (ReferenceIdeal.HostR.wrapIdx row) (ReferenceIdeal.HostR.wrapIdx col)) (ReferenceIdeal.HostR.colIdx col) (ReferenceIdeal.HostR.wrapIdx row) := by
  funext j
  obtain ⟨k, l, rfl⟩ : ∃ (k : Fin 500000) (l : Fin 1), j = ix2 k l := ⟨j 0, j 1, eq_ix2 j⟩
  unfold ReferenceIdeal.HostR.layer1
  rw [addf_apply]
  exact layer_eq_at (n := 500000) (m := 4500000) (ci := 16) (co := 1)
    KernelIdeal.scatter_S500000x1_S4500000x1_S4500000x1_1_0_0_1 ReferenceIdeal.scatter_S500000x1_S4500000x1_S4500000x1_1_0_0_1
    rfl rfl rfl rfl rfl rfl rfl rfl
    KernelIdeal.gather_S500000x1_S4500000x1_S4500000x1_1_0_n_n_0_1_11 ReferenceIdeal.gather_S500000x1_S4500000x1_S4500000x1_1_0_n_n_0_1_11
    rfl rfl rfl rfl rfl rfl rfl rfl rfl rfl rfl rfl rfl rfl
    ReferenceIdeal.gather_S500000_S4500000x1_S4500000_n_0_n_n_0_1_1 rfl rfl rfl rfl rfl rfl rfl
    ReferenceIdeal.dot_S500000x16_S16x1_S500000x1_1_0_0_1_n_n rfl
    (by norm_num) H W (ReferenceIdeal.HostR.dinvV deg) (KernelIdeal.HostK.dcol (ReferenceIdeal.HostR.dinvV deg)) (dcol_apply _) (dinv_nonneg deg) (dinv_ne_top deg)
    KernelIdeal.HostK.zero1 ReferenceIdeal.HostR.zero1 zero1K zero1R
    (ReferenceIdeal.HostR.colIdx col) (ReferenceIdeal.HostR.wrapIdx row) (ReferenceIdeal.HostR.wrapIdx col) (landing_target col)
    (KernelIdeal.HostK.brow1 b) _ (bias1 b) _ (weights1 _ _ _) k l

/-! ## The results -/

/-- THE BRIDGE: the kernel's result function of the arguments is the reference's. -/
theorem kOut_eq_refOut (X : FVec Ideal ReferenceIdeal.S500000x3 .f32) (E : IVec ReferenceIdeal.S2x4000000 32) (W1 : FVec Ideal ReferenceIdeal.S3x16 .f32)
    (b1 : FVec Ideal ReferenceIdeal.S16 .f32) (W2 : FVec Ideal ReferenceIdeal.S16x1 .f32) (b2 : FVec Ideal ReferenceIdeal.S1 .f32) :
    KernelIdeal.HostK.kOut X E W1 b1 W2 b2 = ReferenceIdeal.HostR.refOut X E W1 b1 W2 b2 := by
  unfold KernelIdeal.HostK.kOut ReferenceIdeal.HostR.refOut
  rw [colW_eq, rowW_eq, degV_eq, dinvV_eq, wrapIdx_eq, colIdx_eq, layer16_eq]
  exact layer1_eq _ W2 b2 _ _ _

end Cert.Bridge

end
-- ==== Proof.lean ====
/-
  The certificate of a two-layer graph convolution: a Pallas program of four dense regions (transform, finalize,
  transform, finalize) with the edge gathers and scatter-adds on the host between them, against a plain jnp
  reference, equal as extended reals.

  Per layer the kernel computes  out[k] = (∑_{e → k} (H·W)[src e] · d[src e]) · d[k] + b  and the reference
  out[k] = ∑_{e → k} (H·W)[src e] · (d[src e] · d[tgt e]) + b,  d the degree normalisation, e → k the edges whose
  target word reads k. They agree because d is nonnegative and finite at every node (then the aggregate times d[k]
  distributes over the messages, whatever extended reals these are) and because tgt e = k on every edge that lands on
  k. No finiteness of the float inputs is used.

  The frames of the two kernel programs are the generated ones; the reference's frame is its run with the result
  dropped; the idealization rewrote nothing. The algebraic claim: the kernel's run with its result named (the
  generated launch over the segments, read at the result as well), the result walked back through the four regions
  and the host stretches to one function of the arguments; the reference's run read back as its composed term; and
  the bridge between the two functions.
-/
import proofs.«160642_j70171175682690_1_alg».proof.Defs
import proofs.«160642_j70171175682690_1_alg».proof.Proof.Gen.Kernel
import proofs.«160642_j70171175682690_1_alg».proof.Proof.Gen.Kernel.Skeleton
import proofs.«160642_j70171175682690_1_alg».proof.Proof.Gen.Kernel.Launch
import proofs.«160642_j70171175682690_1_alg».proof.Proof.Gen.Kernel.Points
import proofs.«160642_j70171175682690_1_alg».proof.Proof.Gen.Kernel.Frame
import proofs.«160642_j70171175682690_1_alg».proof.Proof.Gen.KernelIdeal
import proofs.«160642_j70171175682690_1_alg».proof.Proof.Gen.KernelIdeal.Skeleton
import proofs.«160642_j70171175682690_1_alg».proof.Proof.Gen.KernelIdeal.Launch
import proofs.«160642_j70171175682690_1_alg».proof.Proof.Gen.KernelIdeal.Points
import proofs.«160642_j70171175682690_1_alg».proof.Proof.Gen.KernelIdeal.Frame
import proofs.«160642_j70171175682690_1_alg».proof.Proof.Gen.ReferenceIdeal
import proofs.«160642_j70171175682690_1_alg».proof.Proof.Gen.Pre_finite_inputs
import proofs.«160642_j70171175682690_1_alg».proof.Proof.RefRun
import proofs.«160642_j70171175682690_1_alg».proof.Proof.RefValue
import proofs.«160642_j70171175682690_1_alg».proof.Proof.KRun
import proofs.«160642_j70171175682690_1_alg».proof.Proof.KChain
import proofs.«160642_j70171175682690_1_alg».proof.Proof.Bridge
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)
/-- The idealization rewrote no operation. -/
theorem preserves : Cert.preserves_Kernel_KernelIdeal := trivial

/-! ## Equal results -/

/-- Both programs end with their result buffer at one function of the (agreeing) argument arrays. -/
theorem algebraic : Cert.algebraic_KernelIdeal_ReferenceIdeal := by
  intro m ρ m' ρ' _ hagree
  refine ⟨fun c => Cert.KernelIdeal.HostK.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]
    exact (Cert.Bridge.kOut_eq_refOut _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
